-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x16 : Shape := ⟨2, ![800000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128x256 .f32) (main_arg5 : FVec F S256 .f32) (main_arg6 : FVec F S256x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S800000x16 .f32) (main_arg2 : FVec F S16x128 .f32) (main_arg3 : FVec F S128 .f32) (main_arg4 : FVec F S128x256 .f32) (main_arg5 : FVec F S256 .f32) (main_arg6 : FVec F S256x128 .f32) (main_arg7 : FVec F S128 .f32) (main_arg8 : FVec F S128 .f32) (main_arg9 : FVec F S128 .f32) (main_arg10 : IVec S800000 32) (main_arg11 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x16 .f32 := Host.absf main_arg1
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S800000x16 : Shape := ⟨2, ![800000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x16 : Shape := ⟨2, ![50000, 16]⟩
abbrev S50000 : Shape := ⟨1, ![50000]⟩
abbrev S50000x1 : Shape := ⟨2, ![50000, 1]⟩
abbrev S1x128 : Shape := ⟨2, ![1, 128]⟩
abbrev S10x2x128 : Shape := ⟨3, ![10, 2, 128]⟩
abbrev S5000x128 : Shape := ⟨2, ![5000, 128]⟩
abbrev S5000x16 : Shape := ⟨2, ![5000, 16]⟩
abbrev S1x2x128 : Shape := ⟨3, ![1, 2, 128]⟩
abbrev S5000x256 : Shape := ⟨2, ![5000, 256]⟩
abbrev S1x256 : Shape := ⟨2, ![1, 256]⟩
abbrev S1x1x128 : Shape := ⟨3, ![1, 1, 128]⟩
abbrev S2x128 : Shape := ⟨2, ![2, 128]⟩

abbrev nBuf : Space → Nat
  | .hbm => 68
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S16x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S50000x16, .f32⟩
  | .hbm, ⟨27, _⟩ => ⟨S800000x1, .i32⟩
  | .hbm, ⟨28, _⟩ => ⟨S50000x16, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S50000x1, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S10x2x128, .f32⟩
  | .hbm, ⟨43, _⟩ => ⟨S_, .f32⟩
  | .hbm, ⟨44, _⟩ => ⟨S2x128, .f32⟩
  | .hbm, ⟨45, _⟩ => ⟨S1x128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S1x128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x16, .f32⟩
  | .local _ .vmem, ⟨3, _⟩ => ⟨S5000x16, .f32⟩
  | .local _ .vmem, ⟨4, _⟩ => ⟨S16x128, .f32⟩
  | .local _ .vmem, ⟨5, _⟩ => ⟨S128x256, .f32⟩
  | .local _ .vmem, ⟨6, _⟩ => ⟨S256, .f32⟩
  | .local _ .vmem, ⟨7, _⟩ => ⟨S256x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S1x2x128, .f32⟩
  | .local _ .vmem, ⟨12, _⟩ => ⟨S1x2x128, .f32⟩
  | .local _ .vmem, ⟨13, _⟩ => ⟨S5000x128, .f32⟩
  | .local _ .vmem, ⟨14, _⟩ => ⟨S5000x128, .f32⟩
  | .local _ .vmem, ⟨15, _⟩ => ⟨S128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_7 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000x16 : S_.BroadcastsInDim S50000x16 (![] : Fin 0 → Fin S50000x16.rank)
  bcast_S_S50000 : S_.BroadcastsInDim S50000 (![] : Fin 0 → Fin S50000.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S128 : S5000x128.Reduces [0] S128
  inb_S1x2x128_S1x1x128_0_0_0 : ∀ a, (![0, 0, 0] : Fin 3 → Nat) a + S1x1x128.size a ≤ S1x2x128.size a
  h_S1x1x128 : 0 < S1x1x128.numel
  shapeCasts_S1x1x128_S1x128 : S1x1x128.ShapeCasts S1x128
  shapeCasts_S1x128_S1x1x128 : S1x128.ShapeCasts S1x1x128
  inb_S1x2x128_S1x1x128_0_1_0 : ∀ a, (![0, 1, 0] : Fin 3 → Nat) a + S1x1x128.size a ≤ S1x2x128.size a
  reducesTo_S10x2x128_S2x128_d0 : S10x2x128.ReducesTo [0] S2x128
  h_S_ : 0 < S_.numel
  slices_S2x128_S1x128_0_0 : S2x128.Slices ![0, 0] S1x128
  shapeCasts_S1x128_S128 : S1x128.ShapeCasts S128
  bcast_S_S128 : S_.BroadcastsInDim S128 (![] : Fin 0 → Fin S128.rank)
  slices_S2x128_S1x128_1_0 : S2x128.Slices ![1, 0] S1x128
  shapeCasts_S128_S128 : S128.ShapeCasts S128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x16_S800000x1_S800000x16_1_0_0_1_wf : ScatterDims.WF S50000x16 S800000x1 S800000x16 [1] [0] [0] 1
  scatter_S50000_S800000x1_S800000_n_0_0_1_wf : ScatterDims.WF S50000 S800000x1 S800000 [] [0] [0] 1
  dot_S5000x16_S16x128_S5000x128_1_0_0_1_n_n_wf : DotDims.WF S5000x16 S16x128 S5000x128 [1] [0] [0] [1] [] []
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x16.size a ≤ S50000x16.size a
  hwx0_1 : ∀ i : grid0.Coords, EltTy.bits .f32 = 32 ∨ (Rect.block (s := S50000x16) S5000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2x128.size a ≤ S10x2x128.size a
  hwx0_8 : ∀ i : grid0.Coords, EltTy.bits .f32 = 32 ∨ (Rect.block (s := S10x2x128) S1x2x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x16_S800000x1_S800000x16_1_0_0_1 : ScatterDims S50000x16 S800000x1 S800000x16 where
  updateWindowDims := [1]
  insertedWindowDims := [0]
  scatterDimsToOperandDims := [0]
  indexVectorDim := 1
  wf := scatter_S50000x16_S800000x1_S800000x16_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v23_1) S1x2x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v23_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000x16 : Shape := ⟨2, ![800000, 16]⟩
abbrev S16x128 : Shape := ⟨2, ![16, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S800000 : Shape := ⟨1, ![800000]⟩
abbrev S800000x128 : Shape := ⟨2, ![800000, 128]⟩
abbrev S1x128 : Shape := ⟨2, ![1, 128]⟩
abbrev S_ : Shape := ⟨0, ![]⟩
abbrev S800000x1 : Shape := ⟨2, ![800000, 1]⟩
abbrev S50000x256 : Shape := ⟨2, ![50000, 256]⟩
abbrev S1x256 : Shape := ⟨2, ![1, 256]⟩

abbrev nBuf : Space → Nat
  | .hbm => 71
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x16, .f32⟩
  | .hbm, ⟨2, _⟩ => ⟨S16x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S800000, .i32⟩
  | .hbm, ⟨11, _⟩ => ⟨S800000, .i32⟩
  | .hbm, ⟨12, _⟩ => ⟨S800000x128, .f32⟩
  | .hbm, ⟨13, _⟩ => ⟨S1x128, .f32⟩
  | .hbm, ⟨14, _⟩ => ⟨S800000x128, .f32⟩
  | .hbm, ⟨15, _⟩ => ⟨S800000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x256, .f32⟩
  | .hbm, ⟨31, _⟩ => ⟨S1x256, .f32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S50000x256, .f32⟩
  | .hbm, ⟨36, _⟩ => ⟨S50000x256, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S128, .f32⟩
  | .hbm, ⟨43, _⟩ => ⟨S_, .f32⟩
  | .hbm, ⟨44, _⟩ => ⟨S128, .f32⟩
  | .hbm, ⟨45, _⟩ => ⟨S128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  dot_S800000x16_S16x128_S800000x128_1_0_0_1_n_n_wf : DotDims.WF S800000x16 S16x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []

variable [Facts₀]

def dot_S800000x16_S16x128_S800000x128_1_0_0_1_n_n : DotDims S800000x16 S16x128 S800000x128 where
  lhsContracting := [1]
  rhsContracting := [0]
  lhsNonContracting := [0]
  rhsNonContracting := [1]
  lhsBatch := []
  rhsBatch := []
  wf := dot_S800000x16_S16x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named. The program is four segments — the host operations before the
  first launch, the MLP launch, the host operations between the launches, the affine launch — and the generated frame
  already follows the buffers through them: at the last boundary every unscoped buffer holds `W4`. Its frame claim
  forgets everything but the arguments; here the same launch is concluded with the result buffer as well, so that
  every weakly fair execution ends with the result array at `W4` read at the result's reference, which is what the
  affine launch's write-backs leave (`arrAt` of its output window after the last grid point).
-/
import proofs.«173729_j1039382086070_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's buffer at the last boundary is what the affine launch's output window leaves after its last point. -/
theorem W4_result (c : Dev nD) :
    W4 m ρ c (Proc.devRef .tc main_v43) = (dat1 (V3 m ρ) c).arrAt 3 cfg1.N := W4_arr m ρ c 3

/-- The first launch's two results at the boundary after it: what its output windows leave after the last point. -/
theorem W2_h (c : Dev nD) :
    W2 m ρ c (Proc.devRef .tc main_v23_0) = (dat0 (V1 m ρ) c).arrAt 7 cfg0.N := W2_arr m ρ c 7
theorem W2_stats (c : Dev nD) :
    W2 m ρ c (Proc.devRef .tc main_v23_1) = (dat0 (V1 m ρ) c).arrAt 8 cfg0.N := W2_arr m ρ c 8

set_option backward.isDefEq.respectTransparency.types false in
/-- Every weakly fair execution of the idealized kernel terminates without a fault, with the result array at the last
    boundary's contents and the argument arrays as launched. -/
theorem run : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.Form.lean ====
/-
  The shapes both programs are read into, index by index, on the extended reals.

  `mlpRow` is the two-layer perceptron applied to one aggregated row: a product with the first weights plus its bias,
  clamped below at zero, a product with the second weights plus its bias. `bnRef` is batch normalisation of a column as the
  reference writes it (centre, scale by the reciprocal root of the mean squared deviation plus epsilon, affine map);
  `bnScale` / `bnShift` are the kernel's folded coefficients from the column's sum and sum of squares. The float constants
  stay as their bit patterns: the node count 50000 and the epsilon.
-/
import Idealize.ShloMosaic.PureOps.Ideal
import Idealize.ShloMosaic.Lib.ValueIdx

noncomputable section

namespace Cert.GinForm

open Idealize.ShloMosaic Idealize.ShloMosaic.ValueIdx

/-- Entry `d` of the perceptron's output for the aggregated row `a`. -/
def mlpRow (W1 : (⟨2, ![128, 256]⟩ : Shape).Idx → EReal) (b1 : (⟨1, ![256]⟩ : Shape).Idx → EReal)
    (W2 : (⟨2, ![256, 128]⟩ : Shape).Idx → EReal) (b2 : (⟨1, ![128]⟩ : Shape).Idx → EReal)
    (a : Fin 128 → EReal) (d : Fin 128) : EReal :=
  (∑ j : Fin 256, max ((∑ i : Fin 128, a i * W1 (ix2 i j)) + b1 (ix1 j)) 0 * W2 (ix2 j d)) + b2 (ix1 d)

/-- The node count as the programs spell it. -/
abbrev cN : EReal := Ideal.ofBits .f32 0x47435000#32
/-- The variance's epsilon as the programs spell it. -/
abbrev cEps : EReal := Ideal.ofBits .f32 0x3727C5AC#32

/-- The mean of a column of 50000 entries. -/
def colMean (H : Fin 50000 → EReal) : EReal := Ideal.div (∑ n, H n) cN

/-- The reference's normalisation of entry `n` of a column `H`, with scale `g` and offset `b`. -/
def bnRef (H : Fin 50000 → EReal) (g b : EReal) (n : Fin 50000) : EReal :=
  (((H n - colMean H)
      * Ideal.rsqrt (Ideal.div (∑ n', (H n' - colMean H) * (H n' - colMean H)) cN + cEps)) * g) + b

/-- The kernel's multiplier of a column from its sum `S0` and its sum of squares `S1`. -/
def bnScale (S0 S1 g : EReal) : EReal :=
  g * Ideal.rsqrt (max (Ideal.div S1 cN - Ideal.div S0 cN * Ideal.div S0 cN) 0 + cEps)

/-- The kernel's offset of a column. -/
def bnShift (S0 S1 g b : EReal) : EReal := b - Ideal.div S0 cN * bnScale S0 S1 g

end Cert.GinForm

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibMinOps.lean ====
/-
  Minima of a matrix along one axis, and a matrix's sum down its rows, each read at an index written by its coordinates,
  on the extended reals.

  For an `[a, b]` matrix the minimum along the lanes at row `p` is the fold of `min`, from the accumulator's value, over
  `c : Fin b` of the entries `(p, c)`; the minimum down the rows at lane `q` is the fold over `r : Fin a` of the entries
  `(r, q)`; the sum down the rows at lane `q` is the sum over `r` of them. The host's minimum over the LAST axis of an
  `[n, a, b]` array reads, at `(k, p)`, the fold over `c : Fin b` of the entries `(k, p, c)`; over the MIDDLE axis, at
  `(k, c)`, the fold over `p : Fin a` of the same entries. The bit pattern of `+∞` is the greatest extended real, so a
  fold of `min` that starts there is the plain minimum of the family.
-/
import Idealize.ShloMosaic.PureOps.Ideal.Laws
import Idealize.ShloMosaic.Lib.Pipeline.Value
import Idealize.ShloMosaic.Lib.ValueIdx

namespace Cert.MinOps

open Idealize.ShloMosaic Idealize.ShloMosaic.ValueIdx

/-- The f32 pattern of `+∞` is the greatest extended real. -/
theorem posInf_eq_top : Ideal.ofBits .f32 0x7F800000#32 = (⊤ : EReal) := by
  simp [Ideal.ofBits, Ideal.ieee]

variable {φ : FTy}

/-- A float minimum over ONE axis, on the extended reals: the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The lane minimum of row `p`: the fold of `min` over the row's `b` entries. -/
theorem laneMin_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (multiReduction_minimumf_single src acc h hφ hacc (ix1 p)).trans ?_
  show (Finset.univ : Finset (Fin b)).fold min (Ideal.ofBits φ acc) (fun c => src (h.lift (ix1 p) c)) = _
  refine congrArg (fun f => (Finset.univ : Finset (Fin b)).fold min (Ideal.ofBits φ acc) f) (funext fun c => ?_)
  exact congrArg src (funext fun ax => Fin.ext (by match ax with | ⟨0, _⟩ => rfl | ⟨1, _⟩ => rfl))

/-- The minimum down the rows at lane `q`: the fold of `min` over the column's `a` entries. -/
theorem rowsMin_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (Ideal.ofBits φ acc) (fun r => src (ix2 r q)) := by
  refine (multiReduction_minimumf_single src acc h hφ hacc (ix1 q)).trans ?_
  show (Finset.univ : Finset (Fin a)).fold min (Ideal.ofBits φ acc) (fun r => src (h.lift (ix1 q) r)) = _
  refine congrArg (fun f => (Finset.univ : Finset (Fin a)).fold min (Ideal.ofBits φ acc) f) (funext fun r => ?_)
  exact congrArg src (funext fun ax => Fin.ext (by match ax with | ⟨0, _⟩ => rfl | ⟨1, _⟩ => rfl))

/-- The sum down the rows at lane `q`: the sum of the column's `a` entries. -/
theorem rowsSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) := by
  refine (Ideal.multiReduction_add_single src acc h hφ hacc (ix1 q)).trans ?_
  show ∑ r : Fin a, src (h.lift (ix1 q) r) = _
  refine Finset.sum_congr rfl fun r _ => ?_
  exact congrArg src (funext fun ax => Fin.ext (by match ax with | ⟨0, _⟩ => rfl | ⟨1, _⟩ => rfl))

/-- The host's minimum over the LAST axis of an `[n, a, b]` array, at `(k, p)`: the fold of `min`, from the initial value,
    over `c : Fin b` of the entries `(k, p, c)`. -/
theorem hostLastMin_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.minimumf (F := Ideal) (φ := φ)) x init h' hu (ix2 k p)
      = (Finset.univ : Finset (Fin b)).fold min (init (Shape.Idx.first hu)) (fun c => x (ix3 k p c)) := by
  refine (Host.reduce_eq_fold_single (FloatOps.minimumf (F := Ideal) (φ := φ)) x init h' h hu (ix2 k p)).trans ?_
  show (Finset.univ : Finset (Fin b)).fold min (init (Shape.Idx.first hu)) (fun c => x (h.lift (ix2 k p) c)) = _
  refine congrArg (fun f => (Finset.univ : Finset (Fin b)).fold min (init (Shape.Idx.first hu)) f) (funext fun c => ?_)
  exact congrArg x (funext fun ax => Fin.ext (by match ax with | ⟨0, _⟩ => rfl | ⟨1, _⟩ => rfl | ⟨2, _⟩ => rfl))

/-- The host's minimum over the MIDDLE axis of an `[n, a, b]` array, at `(k, c)`: the fold of `min`, from the initial
    value, over `p : Fin a` of the entries `(k, p, c)`. -/
theorem hostMidMin_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.minimumf (F := Ideal) (φ := φ)) x init h' hu (ix2 k c)
      = (Finset.univ : Finset (Fin a)).fold min (init (Shape.Idx.first hu)) (fun p => x (ix3 k p c)) := by
  refine (Host.reduce_eq_fold_single (FloatOps.minimumf (F := Ideal) (φ := φ)) x init h' h hu (ix2 k c)).trans ?_
  show (Finset.univ : Finset (Fin a)).fold min (init (Shape.Idx.first hu)) (fun p => x (h.lift (ix2 k c) p)) = _
  refine congrArg (fun f => (Finset.univ : Finset (Fin a)).fold min (init (Shape.Idx.first hu)) f) (funext fun p => ?_)
  exact congrArg x (funext fun ax => Fin.ext (by match ax with | ⟨0, _⟩ => rfl | ⟨1, _⟩ => rfl | ⟨2, _⟩ => rfl))

/-- A sum over the indices of an `[n, 1, 1]` array is the sum over its first coordinate. -/
theorem sum_idx_n11 {M : Type*} [AddCommMonoid M] {n : ℕ} (f : (⟨3, ![n, 1, 1]⟩ : Shape).Idx → M) :
    ∑ j, f j = ∑ k : Fin n, f (ix3 k (0 : Fin 1) (0 : Fin 1)) := by
  refine (Fintype.sum_equiv
    (⟨fun k => ix3 k (0 : Fin 1) (0 : Fin 1), fun j => j 0, fun _ => rfl, fun j => funext fun d => ?_⟩ :
      Fin n ≃ (⟨3, ![n, 1, 1]⟩ : Shape).Idx) _ _ fun _ => rfl).symm
  match d with
  | ⟨0, _⟩ => rfl
  | ⟨1, _⟩ => exact Subsingleton.elim (α := Fin 1) _ _
  | ⟨2, _⟩ => exact Subsingleton.elim (α := Fin 1) _ _

end Cert.MinOps
-- ==== Proof.Consts.lean ====
/-
  The float constants the two programs spell, as the extended reals their bit patterns denote: zero, one, the node count
  50000 and the variance's epsilon — of which only that it is a positive real is ever used.
-/
import Idealize.ShloMosaic.PureOps.Ideal

noncomputable section

namespace Cert.GinConsts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `50000.0` denotes the real `50000`. -/
theorem ofBits_50000 : Ideal.ofBits .f32 0x47435000#32 = ((50000 : ℝ) : EReal) := by
  simp [Ideal.ofBits, Ideal.ieee, -EReal.coe_mul]; norm_num

/-- The epsilon's pattern denotes a positive real. -/
theorem ofBits_eps_pos : ∃ e : ℝ, 0 < e ∧ Ideal.ofBits .f32 0x3727C5AC#32 = (e : EReal) := by
  refine ⟨(10995116 : ℝ) / 2 ^ 40, by positivity, ?_⟩
  simp [Ideal.ofBits, Ideal.ieee, -EReal.coe_mul]; norm_num

end Cert.GinConsts

end
-- ==== Proof.Payload.lean ====
/-
  THE TWO KERNEL BODIES' ARITHMETIC, READ AT AN ENTRY, on the extended reals.

  The first body computes, for a block of 5000 rows, the perceptron of the aggregated rows: the aggregated row is the
  block's row plus the product of the edge sums with the edge weights; then a product with the first weights plus the first
  bias, the clamp below at zero, a product with the second weights plus the second bias. On the extended reals every
  narrowing of format is the identity, a cast of a shape to itself is the identity, a product accumulated into the zero
  splat at `(p, q)` is the textbook sum over the contracted axis, and a bias `[c]` viewed `[1, c]` and repeated down the
  rows reads the bias at the column — so entry `(r, d)` of the body's value is `mlpRow` of row `r`'s aggregate at `d`
  (`pay3_apply`). Its two column statistics are the sum down the block's rows of that value and of its square, each
  viewed `[1, 128]` (`pay4_apply`, `pay5_apply`), and are stored through a view `[1, 1, 128]` that reads the same entry
  (`pay1_apply`, `pay2_apply`). The second body is the affine map of a column: entry `(r, d)` times the scale at `d`
  plus the shift at `d` (`k1_apply`).
-/
import proofs.«173729_j1039382086070_2_alg».proof.Proof.Gen.KernelIdeal.Skeleton
import proofs.«173729_j1039382086070_2_alg».proof.Proof.Form
import proofs.«173729_j1039382086070_2_alg».proof.Proof.LibPlainMatmul
import proofs.«173729_j1039382086070_2_alg».proof.Proof.LibMinOps
import proofs.«173729_j1039382086070_2_alg».proof.Proof.Consts
import Idealize.ShloMosaic.Lib.Pipeline.Value
import Idealize.ShloMosaic.Lib.ValueLayout
import Idealize.ShloMosaic.Lib.ValueIdx

noncomputable section

open scoped BigOperators

namespace Cert.Payload

open Cert.KernelIdeal Cert.KernelIdeal.Gen Cert.GinForm Idealize.ShloMosaic Idealize.ShloMosaic.ValueIdx

/-- A bias `[c]` viewed `[1, c]` and repeated down `a` rows reads, at `(p, q)`, the bias at `q`. -/
theorem bias_apply {α : Type} {a c : ℕ} (b : (⟨1, ![c]⟩ : Shape).Idx → α)
    (h1 : (⟨1, ![c]⟩ : Shape).ShapeCasts ⟨2, ![1, c]⟩) (h2 : (⟨2, ![1, c]⟩ : Shape).Broadcasts ⟨2, ![a, c]⟩)
    (p : Fin a) (q : Fin c) :
    broadcastTo ⟨2, ![a, c]⟩ (shapeCast ⟨2, ![1, c]⟩ b h1) h2 (ix2 p q) = b (ix1 q) :=
  (broadcastTo_1b_ab_apply _ h2 p q).trans (shapeCast_a_1a_apply b h1 0 q)

/-- Entry `(p, q)` of the `[5000, 16] × [16, 128]` product into the zero splat: the sum over the 16 contracted
    coordinates of the entries' products. -/
theorem dot1_apply {φ₁ φ₂ : FTy} (l : FVec Ideal S5000x16 φ₁) (r : FVec Ideal S16x128 φ₂) (p : Fin 5000)
    (q : Fin 128) :
    matmul dot_S5000x16_S16x128_S5000x128_1_0_0_1_n_n none l r
        (constant (F := Ideal) S5000x128 .f32 0x00000000#32) (ix2 p q)
      = ∑ k : Fin 16, l (ix2 p k) * r (ix2 k q) := by
  unfold dot_S5000x16_S16x128_S5000x128_1_0_0_1_n_n
  exact Cert.PlainMatmul.matmul_zero_apply _ none l r p q

/-- Entry `(p, q)` of the `[5000, 128] × [128, 256]` product into the zero splat: the sum over the 128 contracted
    coordinates of the entries' products. -/
theorem dot2_apply {φ₁ φ₂ : FTy} (l : FVec Ideal S5000x128 φ₁) (r : FVec Ideal S128x256 φ₂) (p : Fin 5000)
    (q : Fin 256) :
    matmul dot_S5000x128_S128x256_S5000x256_1_0_0_1_n_n none l r
        (constant (F := Ideal) S5000x256 .f32 0x00000000#32) (ix2 p q)
      = ∑ k : Fin 128, l (ix2 p k) * r (ix2 k q) := by
  unfold dot_S5000x128_S128x256_S5000x256_1_0_0_1_n_n
  exact Cert.PlainMatmul.matmul_zero_apply _ none l r p q

/-- Entry `(p, q)` of the `[5000, 256] × [256, 128]` product into the zero splat: the sum over the 256 contracted
    coordinates of the entries' products. -/
theorem dot3_apply {φ₁ φ₂ : FTy} (l : FVec Ideal S5000x256 φ₁) (r : FVec Ideal S256x128 φ₂) (p : Fin 5000)
    (q : Fin 128) :
    matmul dot_S5000x256_S256x128_S5000x128_1_0_0_1_n_n none l r
        (constant (F := Ideal) S5000x128 .f32 0x00000000#32) (ix2 p q)
      = ∑ k : Fin 256, l (ix2 p k) * r (ix2 k q) := by
  unfold dot_S5000x256_S256x128_S5000x128_1_0_0_1_n_n
  exact Cert.PlainMatmul.matmul_zero_apply _ none l r p q

/-- THE PERCEPTRON BODY AT `(r, d)`: `mlpRow` at `d` of row `r`'s aggregate, the block's row plus the edge sums' row
    times the edge weights. -/
theorem pay3_apply (v0 : Vec Ideal S5000x16 .f32) (v3 : Vec Ideal S16x128 .f32) (v6 : Vec Ideal S5000x128 .f32)
    (v10 : Vec Ideal S128x256 .f32) (v13 : Vec Ideal S256 .f32) (v20 : Vec Ideal S256x128 .f32)
    (v23 : Vec Ideal S128 .f32) (r : Fin 5000) (d : Fin 128) :
    k0_pay3 (F := Ideal) v0 v3 v6 v10 v13 v20 v23 (ix2 r d)
      = mlpRow v10 v13 v20 v23 (fun q => v6 (ix2 r q) + ∑ k : Fin 16, v0 (ix2 r k) * v3 (ix2 k q)) d := by
  unfold k0_pay3 mlpRow
  simp only [shapeCast_self]
  -- the second layer: a product plus the second bias at the column
  rw [addf_apply, bias_apply, dot3_apply]
  congr 1
  refine Finset.sum_congr rfl fun j _ => ?_
  -- the hidden entry (r, j): the clamp at zero of the first layer's product plus the first bias at j
  rw [truncf_apply, truncf_apply, maximumf_apply, addf_apply, bias_apply, dot2_apply, broadcast_apply]
  rw [Ideal.ofBits_def, Cert.GinConsts.ofBits_zero]
  refine congrArg (fun s => max (s + v13 (ix1 j)) 0 * v20 (ix2 j d)) (Finset.sum_congr rfl fun i _ => ?_)
  -- the aggregated entry (r, i): the block's entry plus the edge sums' row times the edge weights' column
  rw [truncf_apply, truncf_apply, addf_apply, dot1_apply]
  simp only [truncf_apply]

/-- THE COLUMN SUM: entry `(0, d)` of the first statistic is the sum down the block's 5000 rows of the perceptron
    body's column `d`. -/
theorem pay4_apply (v0 : Vec Ideal S5000x16 .f32) (v3 : Vec Ideal S16x128 .f32) (v6 : Vec Ideal S5000x128 .f32)
    (v10 : Vec Ideal S128x256 .f32) (v13 : Vec Ideal S256 .f32) (v20 : Vec Ideal S256x128 .f32)
    (v23 : Vec Ideal S128 .f32) (d : Fin 128) :
    k0_pay4 (F := Ideal) v0 v3 v6 v10 v13 v20 v23 (ix2 0 d)
      = ∑ r : Fin 5000, k0_pay3 (F := Ideal) v0 v3 v6 v10 v13 v20 v23 (ix2 r d) := by
  unfold k0_pay4
  refine (shapeCast_a_1a_apply _ _ 0 d).trans ?_
  exact Cert.MinOps.rowsSum_apply _ _ _ _ _ d

/-- THE COLUMN SUM OF SQUARES: entry `(0, d)` of the second statistic is the sum down the block's 5000 rows of the
    square of the perceptron body's column `d`. -/
theorem pay5_apply (v0 : Vec Ideal S5000x16 .f32) (v3 : Vec Ideal S16x128 .f32) (v6 : Vec Ideal S5000x128 .f32)
    (v10 : Vec Ideal S128x256 .f32) (v13 : Vec Ideal S256 .f32) (v20 : Vec Ideal S256x128 .f32)
    (v23 : Vec Ideal S128 .f32) (d : Fin 128) :
    k0_pay5 (F := Ideal) v0 v3 v6 v10 v13 v20 v23 (ix2 0 d)
      = ∑ r : Fin 5000, k0_pay3 (F := Ideal) v0 v3 v6 v10 v13 v20 v23 (ix2 r d)
          * k0_pay3 (F := Ideal) v0 v3 v6 v10 v13 v20 v23 (ix2 r d) := by
  unfold k0_pay5
  refine (shapeCast_a_1a_apply _ _ 0 d).trans ?_
  exact Cert.MinOps.rowsSum_apply _ _ _ _ _ d

/-- The first statistic's row viewed `[1, 1, 128]` reads, at `(0, 0, d)`, the row at `(0, d)`. -/
theorem pay1_apply (v : FVec Ideal S1x128 .f32) (d : Fin 128) :
    k0_pay1 (F := Ideal) v (ix3 0 0 d) = v (ix2 0 d) := by
  unfold k0_pay1
  exact shapeCast_ab_1ab_apply v _ 0 0 d

/-- The second statistic's row viewed `[1, 1, 128]` reads, at `(0, 0, d)`, the row at `(0, d)`. -/
theorem pay2_apply (v : FVec Ideal S1x128 .f32) (d : Fin 128) :
    k0_pay2 (F := Ideal) v (ix3 0 0 d) = v (ix2 0 d) := by
  unfold k0_pay2
  exact shapeCast_ab_1ab_apply v _ 0 0 d

/-- THE AFFINE BODY AT `(r, d)`: the entry times the scale at `d` plus the shift at `d`. -/
theorem k1_apply (v0 : Vec Ideal S5000x128 .f32) (v2 v7 : Vec Ideal S128 .f32) (r : Fin 5000) (d : Fin 128) :
    k1_pay1 (F := Ideal) v0 v2 v7 (ix2 r d) = v0 (ix2 r d) * v2 (ix1 d) + v7 (ix1 d) := by
  unfold k1_pay1
  simp only [shapeCast_self]
  rw [addf_apply, mulf_apply, bias_apply, bias_apply]

end Cert.Payload

end
-- ==== Proof.Blocks.lean ====
/-
  From blocks to arrays, for both launches, at arbitrary region-entry contents `V`.

  The MLP launch walks ten grid points; point `t` reads rows `5000 t … 5000 t + 4999` of the adjusted node aggregate and
  of the edge aggregate, reads the four weight arrays and two biases whole, and writes back rows `5000 t …` of the
  perceptron's output `h` together with block `t` of the statistics array: row 0 the column sums of its 5000 rows of `h`,
  row 1 the column sums of their squares. The blocks tile both arrays, so after the last point the `h` array is the
  perceptron applied row by row (`hForm`) and the statistics array is the per-tile sums of it (`statForm`).

  The affine launch walks the same ten tiles of `h`, reads the multiplier and the offset whole, and writes back
  `h * scale + shift` row by row (`affine`).
-/
import proofs.«173729_j1039382086070_2_alg».proof.Proof.KernelRun
import proofs.«173729_j1039382086070_2_alg».proof.Proof.Form
import proofs.«173729_j1039382086070_2_alg».proof.Proof.Payload
import Idealize.ShloMosaic.Lib.Pipeline.Value
import Idealize.ShloMosaic.Lib.ValueIdx
import Idealize.ShloMosaic.PureOps.Ideal.Laws

set_option maxRecDepth 200000

noncomputable section

namespace Cert.KernelIdeal.Blocks

open Cert.KernelIdeal Cert.KernelIdeal.Gen Cert.GinForm Cert.Payload
open Idealize.ShloMosaic Idealize.ShloMosaic.TcCoe Idealize.ShloMosaic.ValueIdx Idealize.SL.Sem
open Idealize.ShloMosaic.Pipeline (Dat Cfg Window)

theorem hz1 : (![0] : Fin 1 → Nat) = fun _ => 0 := funext fun a => by fin_cases a <;> rfl
theorem hz2 : (![0, 0] : Fin 2 → Nat) = fun _ => 0 := funext fun a => by fin_cases a <;> rfl

/-! ## The whole-array functions -/

/-- Row `5000 t + r` of a 50000-row array. -/
def rowOf (t : Fin 10) (r : Fin 5000) : Fin 50000 := ⟨t.val * 5000 + r.val, by have := t.isLt; have := r.isLt; omega⟩

/-- The perceptron's output: row `n` is `mlpRow` of the adjusted node aggregate's row plus the edge aggregate's row
    times the edge weights. -/
def hForm (A22 : S50000x128.Idx → EReal) (A12 : S50000x16.Idx → EReal) (We : S16x128.Idx → EReal)
    (W1 : S128x256.Idx → EReal) (b1 : S256.Idx → EReal) (W2 : S256x128.Idx → EReal) (b2 : S128.Idx → EReal) :
    S50000x128.Idx → EReal := fun i =>
  mlpRow W1 b1 W2 b2 (fun q => A22 (ix2 (i 0) q) + ∑ k : Fin 16, A12 (ix2 (i 0) k) * We (ix2 k q)) (i 1)

/-- The per-tile statistics of an array `H`: at `(t, 0, d)` the sum of column `d` over tile `t`'s 5000 rows, at `(t, 1, d)`
    the sum of the squares. -/
def statForm (H : S50000x128.Idx → EReal) : S10x2x128.Idx → EReal := fun i =>
  if (i 1).val = 0 then ∑ r : Fin 5000, H (ix2 (rowOf (i 0) r) (i 2))
  else ∑ r : Fin 5000, H (ix2 (rowOf (i 0) r) (i 2)) * H (ix2 (rowOf (i 0) r) (i 2))

theorem statForm_zero (H : S50000x128.Idx → EReal) (t : Fin 10) (d : Fin 128) :
    statForm H (ix3 t 0 d) = ∑ r : Fin 5000, H (ix2 (rowOf t r) d) := if_pos rfl
theorem statForm_one (H : S50000x128.Idx → EReal) (t : Fin 10) (d : Fin 128) :
    statForm H (ix3 t 1 d) = ∑ r : Fin 5000, H (ix2 (rowOf t r) d) * H (ix2 (rowOf t r) d) :=
  if_neg (by show ¬ ((1 : Fin 2).val = 0); decide)

/-- The affine map applied row by row. -/
def affine (h : S50000x128.Idx → EReal) (sc sh : S128.Idx → EReal) : S50000x128.Idx → EReal := fun i =>
  h i * sc (ix1 (i 1)) + sh (ix1 (i 1))

variable (V : (c : Dev nD) → (b : Ref sig .tc) → Buf (Elt Ideal) ((c : Thread nD τ).loc b))

/-- The MLP launch's `h` array, of the region-entry contents. -/
def G7 (c : Dev nD) : S50000x128.Idx → EReal :=
  hForm (V c main_v22) (V c main_v12) (V c main_arg2) (V c main_arg4) (V c main_arg5) (V c main_arg6) (V c main_arg7)
/-- The MLP launch's statistics array. -/
def G8 (c : Dev nD) : S10x2x128.Idx → EReal := statForm (G7 V c)
/-- The affine launch's result, of ITS region-entry contents. -/
def G1 (c : Dev nD) : S50000x128.Idx → EReal := affine (V c main_v23_0) (V c main_v40) (V c main_v42)

/-! ## The MLP launch -/

/-- The printed index maps over the grid: the row-tiled windows are at block `(t, 0)`, the whole-array windows at the
    origin, the statistics window at `(t, 0, 0)`. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- A grid point as a tile number. -/
def tile (t : Fin cfg0.N) : Fin 10 := ⟨t.val, t.isLt⟩

/-- The body's `h` payload at point `t`, row `r`, column `d`, is the whole-array `h` at row `5000 t + r`. -/
theorem pay3_at (c : Dev nD) (t : Fin cfg0.N) (r : Fin 5000) (d : Fin 128) :
    k0_pay3 (F := Ideal) (iblk0 V c 1 t) (iblk0 V c 2 t) (iblk0 V c 0 t) (iblk0 V c 3 t) (iblk0 V c 4 t) (iblk0 V c 5 t)
        (iblk0 V c 6 t) (ix2 r d) = G7 V c (ix2 (rowOf (tile t) r) d) := by
  refine (pay3_apply (iblk0 V c 1 t) (iblk0 V c 2 t) (iblk0 V c 0 t) (iblk0 V c 3 t) (iblk0 V c 4 t) (iblk0 V c 5 t)
    (iblk0 V c 6 t) r d).trans ?_
  obtain ⟨e00, e01, e10, e11, e20, e21, e30, e31, e40, e50, e51, e60, e70, e71, e80, e81, e82⟩ := idx_facts0 t
  have w2 : (iblk0 V c 2 t : S16x128.Idx → EReal) = V c main_arg2 := funext fun y =>
    congrArg (V c main_arg2 : S16x128.Idx → EReal) (funext fun a => Fin.ext (by
      match a with
      | ⟨0, _⟩ => show win0_2.index t (0 : Fin 2) * 16 + 1 * (y 0).val = (y 0).val; omega
      | ⟨1, _⟩ => show win0_2.index t (1 : Fin 2) * 128 + 1 * (y 1).val = (y 1).val; omega))
  have w3 : (iblk0 V c 3 t : S128x256.Idx → EReal) = V c main_arg4 := funext fun y =>
    congrArg (V c main_arg4 : S128x256.Idx → EReal) (funext fun a => Fin.ext (by
      match a with
      | ⟨0, _⟩ => show win0_3.index t (0 : Fin 2) * 128 + 1 * (y 0).val = (y 0).val; omega
      | ⟨1, _⟩ => show win0_3.index t (1 : Fin 2) * 256 + 1 * (y 1).val = (y 1).val; omega))
  have w4 : (iblk0 V c 4 t : S256.Idx → EReal) = V c main_arg5 := funext fun y =>
    congrArg (V c main_arg5 : S256.Idx → EReal) (funext fun a => Fin.ext (by
      match a with
      | ⟨0, _⟩ => show win0_4.index t (0 : Fin 1) * 256 + 1 * (y 0).val = (y 0).val; omega))
  have w5 : (iblk0 V c 5 t : S256x128.Idx → EReal) = V c main_arg6 := funext fun y =>
    congrArg (V c main_arg6 : S256x128.Idx → EReal) (funext fun a => Fin.ext (by
      match a with
      | ⟨0, _⟩ => show win0_5.index t (0 : Fin 2) * 256 + 1 * (y 0).val = (y 0).val; omega
      | ⟨1, _⟩ => show win0_5.index t (1 : Fin 2) * 128 + 1 * (y 1).val = (y 1).val; omega))
  have w6 : (iblk0 V c 6 t : S128.Idx → EReal) = V c main_arg7 := funext fun y =>
    congrArg (V c main_arg7 : S128.Idx → EReal) (funext fun a => Fin.ext (by
      match a with
      | ⟨0, _⟩ => show win0_6.index t (0 : Fin 1) * 128 + 1 * (y 0).val = (y 0).val; omega))
  have a0 : ∀ q : Fin 128, iblk0 V c 0 t (ix2 r q) = (V c main_v22 : S50000x128.Idx → EReal) (ix2 (rowOf (tile t) r) q) := fun q =>
    congrArg (V c main_v22 : S50000x128.Idx → EReal) (funext fun a => Fin.ext (by
      match a with
      | ⟨0, _⟩ => show win0_0.index t (0 : Fin 2) * 5000 + 1 * r.val = t.val * 5000 + r.val; omega
      | ⟨1, _⟩ => show win0_0.index t (1 : Fin 2) * 128 + 1 * q.val = q.val; omega))
  have a1 : ∀ k : Fin 16, iblk0 V c 1 t (ix2 r k) = (V c main_v12 : S50000x16.Idx → EReal) (ix2 (rowOf (tile t) r) k) := fun k =>
    congrArg (V c main_v12 : S50000x16.Idx → EReal) (funext fun a => Fin.ext (by
      match a with
      | ⟨0, _⟩ => show win0_1.index t (0 : Fin 2) * 5000 + 1 * r.val = t.val * 5000 + r.val; omega
      | ⟨1, _⟩ => show win0_1.index t (1 : Fin 2) * 16 + 1 * k.val = k.val; omega))
  rw [w2, w3, w4, w5, w6]
  show _ = mlpRow _ _ _ _ _ _
  refine congrArg (fun f => mlpRow _ _ _ _ f d) (funext fun q => ?_)
  rw [a0 q]
  refine congrArg _ (Finset.sum_congr rfl fun k _ => ?_)
  rw [a1 k]

/-- What point `t` writes back of `h` is block `t` of the whole-array `h`. -/
theorem flushed7 (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  unfold out0_7
  rw [View.canon_unit_zero hz2]
  simp only [View.ld_unit_zero (S := S5000x16) hz2, View.ld_unit_zero (S := S16x128) hz2,
    View.ld_unit_zero (S := S5000x128) hz2, View.ld_unit_zero (S := S128x256) hz2, View.ld_unit_zero (S := S256) hz1,
    View.ld_unit_zero (S := S256x128) hz2, View.ld_unit_zero (S := S128) hz1]
  funext j
  show k0_pay3 (iblk0 V c 1 t) (iblk0 V c 2 t) (iblk0 V c 0 t) (iblk0 V c 3 t) (iblk0 V c 4 t) (iblk0 V c 5 t)
    (iblk0 V c 6 t) j = G7 V c (((cfg0.win 7).blk t).view.emb j)
  obtain ⟨r, d, rfl⟩ : ∃ (r : Fin 5000) (d : Fin 128), j = ix2 r d := ⟨j 0, j 1, eq_ix2 j⟩
  refine (pay3_at V c t r d).trans (congrArg (G7 V c) ?_)
  obtain ⟨e00, e01, e10, e11, e20, e21, e30, e31, e40, e50, e51, e60, e70, e71, e80, e81, e82⟩ := idx_facts0 t
  funext a; apply Fin.ext
  match a with
  | ⟨0, _⟩ => show t.val * 5000 + r.val = win0_7.index t (0 : Fin 2) * 5000 + 1 * r.val; omega
  | ⟨1, _⟩ => show d.val = win0_7.index t (1 : Fin 2) * 128 + 1 * d.val; omega

theorem mem_blk7 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v23_0).slice (win0_7.rect t)).set ↔ _
  rw [View.set_slice_whole, Rect.mem_set_unit]
  exact Iff.rfl

/-- Row `n` is in tile `n / 5000`. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have ht : (i 0).val / 5000 < 10 := by omega
  refine ⟨⟨(i 0).val / 5000, ht⟩, flush0_7 _, ?_⟩
  rw [mem_blk7]
  obtain ⟨e00, e01, e10, e11, e20, e21, e30, e31, e40, e50, e51, e60, e70, e71, e80, e81, e82⟩ :=
    idx_facts0 ⟨(i 0).val / 5000, ht⟩
  intro a
  match a with
  | ⟨0, _⟩ =>
    show win0_7.index _ (0 : Fin 2) * 5000 ≤ (i 0).val ∧ (i 0).val < win0_7.index _ (0 : Fin 2) * 5000 + 5000
    rw [e70]; show (i 0).val / 5000 * 5000 ≤ (i 0).val ∧ (i 0).val < (i 0).val / 5000 * 5000 + 5000; omega
  | ⟨1, _⟩ =>
    show win0_7.index _ (1 : Fin 2) * 128 ≤ (i 1).val ∧ (i 1).val < win0_7.index _ (1 : Fin 2) * 128 + 128
    rw [e71]; omega

/-- After the MLP launch the `h` array is the perceptron applied row by row. -/
theorem final7 (c : Dev nD) : (dat0 V c).arrAt 7 cfg0.N = G7 V c :=
  (dat0 V c).arrAt_eq_of_cover 7 (G7 V c) (fun t _ => flushed7 V c t) cover7

/-- An index of a `[1, 1, 128]` vector is its lane. -/
theorem eq_ix3_lane (x : S1x1x128.Idx) : x = ix3 0 0 (x 2) := by
  funext a
  match a with
  | ⟨0, _⟩ => exact Fin.ext (by have h : (x 0).val < 1 := (x 0).isLt; show (x 0).val = 0; omega)
  | ⟨1, _⟩ => exact Fin.ext (by have h : (x 1).val < 1 := (x 1).isLt; show (x 1).val = 0; omega)
  | ⟨2, _⟩ => rfl

theorem mem_blk8 (t : Fin cfg0.N) (i : S10x2x128.Idx) :
    i ∈ ((cfg0.win 8).blk t).view.set ↔ ∀ a : Fin 3, win0_8.index t a * S1x2x128.size a ≤ (i a).val
      ∧ (i a).val < win0_8.index t a * S1x2x128.size a + S1x2x128.size a := by
  show i ∈ ((View.whole main_v23_1).slice (win0_8.rect t)).set ↔ _
  rw [View.set_slice_whole, Rect.mem_set_unit]
  exact Iff.rfl

/-- What point `t` writes back of the statistics is block `t` of the per-tile sums: the first store leaves the column sums
    of the point's rows of `h` in row 0, the second the column sums of their squares in row 1. -/
theorem flushed8 (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8]
  unfold out0_8
  simp only [View.ld_unit_zero (S := S5000x16) hz2, View.ld_unit_zero (S := S16x128) hz2,
    View.ld_unit_zero (S := S5000x128) hz2, View.ld_unit_zero (S := S128x256) hz2, View.ld_unit_zero (S := S256) hz1,
    View.ld_unit_zero (S := S256x128) hz2, View.ld_unit_zero (S := S128) hz1]
  funext j
  show View.canon (Val := Elt Ideal) (s := S1x2x128) (e := .f32) _ j = G8 V c (((cfg0.win 8).blk t).view.emb j)
  obtain ⟨e00, e01, e10, e11, e20, e21, e30, e31, e40, e50, e51, e60, e70, e71, e80, e81, e82⟩ := idx_facts0 t
  refine View.canon_apply_of_pieces (Val := Elt Ideal) (fun y : S1x2x128.Idx => G8 V c (((cfg0.win 8).blk t).view.emb y)) _ ?_ j
    (cover0_8 _ _ j)
  intro p hp x
  simp only [List.mem_cons, List.mem_singleton, List.not_mem_nil, or_false] at hp
  rcases hp with rfl | rfl
  · obtain ⟨d, rfl⟩ : ∃ d : Fin 128, x = ix3 0 0 d :=
      ⟨x 2, eq_ix3_lane x⟩
    refine (pay2_apply _ d).trans ((pay5_apply _ _ _ _ _ _ _ d).trans ?_)
    have hi : ((cfg0.win 8).blk t).view.emb (r0_8.emb (ix3 0 0 d)) = ix3 (tile t) 1 d := by
      funext a; apply Fin.ext
      match a with
      | ⟨0, _⟩ => show win0_8.index t (0 : Fin 3) * 1 + 1 * (0 + 1 * 0) = t.val; omega
      | ⟨1, _⟩ => show win0_8.index t (1 : Fin 3) * 2 + 1 * (1 + 1 * 0) = 1; omega
      | ⟨2, _⟩ => show win0_8.index t (2 : Fin 3) * 128 + 1 * (0 + 1 * d.val) = d.val; omega
    show _ = G8 V c (((cfg0.win 8).blk t).view.emb (r0_8.emb (ix3 0 0 d)))
    rw [hi]
    unfold G8
    rw [statForm_one]
    exact Finset.sum_congr rfl fun r _ => by rw [pay3_at V c t r d]
  · obtain ⟨d, rfl⟩ : ∃ d : Fin 128, x = ix3 0 0 d :=
      ⟨x 2, eq_ix3_lane x⟩
    refine (pay1_apply _ d).trans ((pay4_apply _ _ _ _ _ _ _ d).trans ?_)
    have hi : ((cfg0.win 8).blk t).view.emb (r0_7.emb (ix3 0 0 d)) = ix3 (tile t) 0 d := by
      funext a; apply Fin.ext
      match a with
      | ⟨0, _⟩ => show win0_8.index t (0 : Fin 3) * 1 + 1 * (0 + 1 * 0) = t.val; omega
      | ⟨1, _⟩ => show win0_8.index t (1 : Fin 3) * 2 + 1 * (0 + 1 * 0) = 0; omega
      | ⟨2, _⟩ => show win0_8.index t (2 : Fin 3) * 128 + 1 * (0 + 1 * d.val) = d.val; omega
    show _ = G8 V c (((cfg0.win 8).blk t).view.emb (r0_7.emb (ix3 0 0 d)))
    rw [hi]
    unfold G8
    rw [statForm_zero]
    exact Finset.sum_congr rfl fun r _ => pay3_at V c t r d

/-- Statistics block `t` is point `t`'s. -/
theorem cover8 (i : S10x2x128.Idx) :
    ∃ t : Fin cfg0.N, (cfg0.win 8).flush t = true ∧ i ∈ ((cfg0.win 8).blk t).view.set := by
  have hi0 : (i 0).val < 10 := (i 0).isLt
  have hi1 : (i 1).val < 2 := (i 1).isLt
  have hi2 : (i 2).val < 128 := (i 2).isLt
  refine ⟨⟨(i 0).val, hi0⟩, flush0_8 _, ?_⟩
  rw [mem_blk8]
  obtain ⟨e00, e01, e10, e11, e20, e21, e30, e31, e40, e50, e51, e60, e70, e71, e80, e81, e82⟩ :=
    idx_facts0 ⟨(i 0).val, hi0⟩
  intro a
  match a with
  | ⟨0, _⟩ =>
    show win0_8.index _ (0 : Fin 3) * 1 ≤ (i 0).val ∧ (i 0).val < win0_8.index _ (0 : Fin 3) * 1 + 1
    rw [e80]; show (i 0).val * 1 ≤ (i 0).val ∧ (i 0).val < (i 0).val * 1 + 1; omega
  | ⟨1, _⟩ =>
    show win0_8.index _ (1 : Fin 3) * 2 ≤ (i 1).val ∧ (i 1).val < win0_8.index _ (1 : Fin 3) * 2 + 2
    rw [e81]; omega
  | ⟨2, _⟩ =>
    show win0_8.index _ (2 : Fin 3) * 128 ≤ (i 2).val ∧ (i 2).val < win0_8.index _ (2 : Fin 3) * 128 + 128
    rw [e82]; omega

/-- After the MLP launch the statistics array holds the per-tile column sums of `h` and of its squares. -/
theorem final8 (c : Dev nD) : (dat0 V c).arrAt 8 cfg0.N = G8 V c :=
  (dat0 V c).arrAt_eq_of_cover 8 (G8 V c) (fun t _ => flushed8 V c t) cover8

/-! ## The affine launch -/

theorem idx_facts1 : ∀ t : Fin cfg1.N, win1_0.index t (0 : Fin 2) = win1_3.index t (0 : Fin 2)
    ∧ win1_0.index t (1 : Fin 2) = win1_3.index t (1 : Fin 2)
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the affine map of `h`. -/
theorem flushed1 (c : Dev nD) (t : Fin cfg1.N) :
    (dat1 V c).flushed 3 t = ((cfg1.win 3).blk t).view.read (Elt Ideal) (G1 V c) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128) hz1]
  funext j
  show k1_pay1 (iblk1 V c 0 t) (iblk1 V c 1 t) (iblk1 V c 2 t) j = G1 V c (((cfg1.win 3).blk t).view.emb j)
  obtain ⟨r, d, rfl⟩ : ∃ (r : Fin 5000) (d : Fin 128), j = ix2 r d := ⟨j 0, j 1, eq_ix2 j⟩
  refine (k1_apply _ _ _ r d).trans ?_
  obtain ⟨e0, e1, e2, e3, e4, e5⟩ := idx_facts1 t
  have h0 : ((cfg1.win 0).blk t).view.emb (ix2 r d) = ((cfg1.win 3).blk t).view.emb (ix2 r d) := by
    funext a; apply Fin.ext
    match a with
    | ⟨0, _⟩ => show win1_0.index t (0 : Fin 2) * 5000 + 1 * r.val = win1_3.index t (0 : Fin 2) * 5000 + 1 * r.val; omega
    | ⟨1, _⟩ => show win1_0.index t (1 : Fin 2) * 128 + 1 * d.val = win1_3.index t (1 : Fin 2) * 128 + 1 * d.val; omega
  have h1 : ((cfg1.win 1).blk t).view.emb (ix1 d) = ix1 ((((cfg1.win 3).blk t).view.emb (ix2 r d)) 1) := by
    funext a; apply Fin.ext
    match a with
    | ⟨0, _⟩ => show win1_1.index t (0 : Fin 1) * 128 + 1 * d.val = win1_3.index t (1 : Fin 2) * 128 + 1 * d.val; omega
  have h2 : ((cfg1.win 2).blk t).view.emb (ix1 d) = ix1 ((((cfg1.win 3).blk t).view.emb (ix2 r d)) 1) := by
    funext a; apply Fin.ext
    match a with
    | ⟨0, _⟩ => show win1_2.index t (0 : Fin 1) * 128 + 1 * d.val = win1_3.index t (1 : Fin 2) * 128 + 1 * d.val; omega
  have a0 : iblk1 V c 0 t (ix2 r d) = (V c main_v23_0 : S50000x128.Idx → EReal) (((cfg1.win 3).blk t).view.emb (ix2 r d)) :=
    congrArg (V c main_v23_0 : S50000x128.Idx → EReal) h0
  have a1 : iblk1 V c 1 t (ix1 d) = (V c main_v40 : S128.Idx → EReal) (ix1 ((((cfg1.win 3).blk t).view.emb (ix2 r d)) 1)) :=
    congrArg (V c main_v40 : S128.Idx → EReal) h1
  have a2 : iblk1 V c 2 t (ix1 d) = (V c main_v42 : S128.Idx → EReal) (ix1 ((((cfg1.win 3).blk t).view.emb (ix2 r d)) 1)) :=
    congrArg (V c main_v42 : S128.Idx → EReal) h2
  rw [a0, a1, a2]
  rfl

theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v43).slice (win1_3.rect t)).set ↔ _
  rw [View.set_slice_whole, Rect.mem_set_unit]
  exact Iff.rfl

theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 5000 < 10 := by omega
  refine ⟨⟨(i 0).val / 5000, ht⟩, flush1_3 _, ?_⟩
  rw [mem_blk1]
  obtain ⟨e0, e1, e2, e3, e4, e5⟩ := idx_facts1 ⟨(i 0).val / 5000, ht⟩
  intro a
  match a with
  | ⟨0, _⟩ =>
    show win1_3.index _ (0 : Fin 2) * 5000 ≤ (i 0).val ∧ (i 0).val < win1_3.index _ (0 : Fin 2) * 5000 + 5000
    rw [e4]; show (i 0).val / 5000 * 5000 ≤ (i 0).val ∧ (i 0).val < (i 0).val / 5000 * 5000 + 5000; omega
  | ⟨1, _⟩ =>
    show win1_3.index _ (1 : Fin 2) * 128 ≤ (i 1).val ∧ (i 1).val < win1_3.index _ (1 : Fin 2) * 128 + 128
    rw [e5]; omega

/-- After the affine launch the result array is the affine map of `h`, row by row. -/
theorem final1 (c : Dev nD) : (dat1 V c).arrAt 3 cfg1.N = G1 V c :=
  (dat1 V c).arrAt_eq_of_cover 3 (G1 V c) (fun t _ => flushed1 V c t) cover1

end Cert.KernelIdeal.Blocks

end
-- ==== Proof.HostDefs.lean ====
/-
  The host operations around the two launches, as functions of the arrays they read.

  Before the MLP launch the host gathers the source rows (negative indices wrapped by the node count), sums them into their
  destination nodes, sums the edge features and the constant one into the destination nodes as well (the edge
  aggregate and the in-degree), and adds the in-degree times the edge bias to the node aggregate. Between the launches
  it sums the statistics over the ten tiles, takes the column means and the mean squares, and forms the multiplier
  `gamma * rsqrt(max(E[h^2] - mean^2, 0) + eps)` and the offset `beta - mean * multiplier`.
-/
import proofs.«173729_j1039382086070_2_alg».proof.KernelIdeal
import proofs.«173729_j1039382086070_2_alg».proof.Proof.Gen.KernelIdeal
import Idealize.ShloMosaic.PureOps.Ideal.Laws

noncomputable section

namespace Cert.KernelIdeal.HostRun

open Cert.KernelIdeal Cert.KernelIdeal.Gen
open Idealize.ShloMosaic Idealize.ShloMosaic.TcCoe Idealize.SL.Sem

/-! ## Before the MLP launch -/

/-- The source indices, a negative one wrapped by the node count, as a column. -/
def srcCol (x10 : IVec S800000 32) : IVec S800000x1 32 :=
  broadcastInDim S800000x1 ![0] bcast_S800000_S800000x1_0
    (select (cmpi .slt x10 (broadcastInDim S800000 ![] bcast_S_S800000 (constantI S_ 32 0#32)))
      (addi x10 (broadcastInDim S800000 ![] bcast_S_S800000 (constantI S_ 32 50000#32))) x10)

/-- The gathered source rows, one per edge. -/
def gathered (x0 : FVec Ideal S50000x128 .f32) (x10 : IVec S800000 32) : FVec Ideal S800000x128 .f32 :=
  Host.gather gather_S50000x128_S800000x1_S800000x128_1_0_n_n_0_1_1128 x0 (srcCol x10)

/-- The destination indices as a column. -/
def dstCol (x11 : IVec S800000 32) : IVec S800000x1 32 := broadcastInDim S800000x1 ![0] bcast_S800000_S800000x1_0 x11

/-- The gathered rows summed into their destination nodes. -/
def aggNodes (x0 : FVec Ideal S50000x128 .f32) (x10 x11 : IVec S800000 32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstCol x11) (gathered x0 x10)

/-- The edge features summed into their destination nodes. -/
def aggEdge (x1 : FVec Ideal S800000x16 .f32) (x11 : IVec S800000 32) : FVec Ideal S50000x16 .f32 :=
  Host.scatterAdd (F := Ideal) scatter_S50000x16_S800000x1_S800000x16_1_0_0_1
    (broadcastInDim S50000x16 ![] bcast_S_S50000x16 (constant (F := Ideal) S_ .f32 0x00000000#32)) (dstCol x11) x1

/-- The in-degree: the constant one summed into the destination nodes. -/
def deg (x11 : IVec S800000 32) : FVec Ideal S50000 .f32 :=
  Host.scatterAdd (F := Ideal) scatter_S50000_S800000x1_S800000_n_0_0_1
    (broadcastInDim S50000 ![] bcast_S_S50000 (constant (F := Ideal) S_ .f32 0x00000000#32)) (dstCol x11)
    (broadcastInDim S800000 ![] bcast_S_S800000 (constant (F := Ideal) S_ .f32 0x3F800000#32))

/-- The node aggregate plus the in-degree times the edge bias. -/
def aggAdj (x0 : FVec Ideal S50000x128 .f32) (x3 : FVec Ideal S128 .f32) (x10 x11 : IVec S800000 32) : FVec Ideal S50000x128 .f32 :=
  addf (aggNodes x0 x10 x11)
    (mulf (broadcastInDim S50000x128 ![0, 1] bcast_S50000x1_S50000x128_0_1 (broadcastInDim S50000x1 ![0] bcast_S50000_S50000x1_0 (deg x11)))
      (broadcastInDim S50000x128 ![0, 1] bcast_S1x128_S50000x128_0_1 (broadcastInDim S1x128 ![1] bcast_S128_S1x128_1 x3)))

/-! ## Between the launches -/

/-- The statistics summed over the ten tiles. -/
def statsSum (St : FVec Ideal S10x2x128 .f32) : FVec Ideal S2x128 .f32 :=
  Host.reduceAdd (F := Ideal) St (constant (F := Ideal) S_ .f32 0x00000000#32) reducesTo_S10x2x128_S2x128_d0 h_S_

/-- The column sums of `h`: row 0 of the summed statistics. -/
def colSum0 (St : FVec Ideal S10x2x128 .f32) : FVec Ideal S128 .f32 :=
  shapeCast S128 (extractStridedSlice S1x128 ![0, 0] (statsSum St) slices_S2x128_S1x128_0_0) shapeCasts_S1x128_S128
/-- The column sums of the squares: row 1. -/
def colSum1 (St : FVec Ideal S10x2x128 .f32) : FVec Ideal S128 .f32 :=
  shapeCast S128 (extractStridedSlice S1x128 ![1, 0] (statsSum St) slices_S2x128_S1x128_1_0) shapeCasts_S1x128_S128

/-- The node count, on every lane. -/
def cNvec : FVec Ideal S128 .f32 := broadcastInDim S128 ![] bcast_S_S128 (constant (F := Ideal) S_ .f32 0x47435000#32)

/-- The column means. -/
def meanV (St : FVec Ideal S10x2x128 .f32) : FVec Ideal S128 .f32 := Host.divf (colSum0 St) cNvec

/-- The multiplier. -/
def scaleV (St : FVec Ideal S10x2x128 .f32) (g : FVec Ideal S128 .f32) : FVec Ideal S128 .f32 :=
  mulf g (Host.rsqrt (addf (maximumf (subf (Host.divf (colSum1 St) cNvec) (mulf (meanV St) (meanV St)))
      (broadcastInDim S128 ![] bcast_S_S128 (constant (F := Ideal) S_ .f32 0x00000000#32)))
    (broadcastInDim S128 ![] bcast_S_S128 (constant (F := Ideal) S_ .f32 0x3727C5AC#32))))

/-- The offset. -/
def shiftV (St : FVec Ideal S10x2x128 .f32) (g b : FVec Ideal S128 .f32) : FVec Ideal S128 .f32 :=
  subf b (mulf (meanV St) (scaleV St g))

end Cert.KernelIdeal.HostRun

end
-- ==== Proof.HostRun.lean ====
/-
  The host stages read off the boundary contents the frame names: what each buffer holds when a launch is entered is
  the stage's function (`HostDefs`) of the argument arrays, or of what the MLP launch left.
-/
import proofs.«173729_j1039382086070_2_alg».proof.Proof.KernelRun
import proofs.«173729_j1039382086070_2_alg».proof.Proof.HostDefs
import Idealize.ShloMosaic.Lib.StableHlo.Run
import Idealize.ShloMosaic.PureOps.Ideal.Laws

set_option maxRecDepth 16384

noncomputable section

namespace Cert.KernelIdeal.HostRun

open Cert.KernelIdeal Cert.KernelIdeal.Gen
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

set_option maxHeartbeats 4000000 in
theorem V1_v22 (c : Dev nD) : (V1 m ρ c main_v22 : S50000x128.Idx → EReal)
    = aggAdj (m ((c : Thread nD τ).loc main_arg0)) (m ((c : Thread nD τ).loc main_arg3)) (m ((c : Thread nD τ).loc main_arg10))
        (m ((c : Thread nD τ).loc main_arg11)) := by
  dsimp only [V1, W1, hostOps0]
  after_results
  rfl

set_option maxHeartbeats 4000000 in
theorem V1_v12 (c : Dev nD) : (V1 m ρ c main_v12 : S50000x16.Idx → EReal)
    = aggEdge (m ((c : Thread nD τ).loc main_arg1)) (m ((c : Thread nD τ).loc main_arg11)) := by
  dsimp only [V1, W1, hostOps0]
  after_results
  rfl

set_option maxHeartbeats 4000000 in
theorem V1_arg2 (c : Dev nD) : (V1 m ρ c main_arg2 : S16x128.Idx → EReal) = m ((c : Thread nD τ).loc main_arg2) := by
  dsimp only [V1, W1, hostOps0]
  after_results
set_option maxHeartbeats 4000000 in
theorem V1_arg4 (c : Dev nD) : (V1 m ρ c main_arg4 : S128x256.Idx → EReal) = m ((c : Thread nD τ).loc main_arg4) := by
  dsimp only [V1, W1, hostOps0]
  after_results
set_option maxHeartbeats 4000000 in
theorem V1_arg5 (c : Dev nD) : (V1 m ρ c main_arg5 : S256.Idx → EReal) = m ((c : Thread nD τ).loc main_arg5) := by
  dsimp only [V1, W1, hostOps0]
  after_results
set_option maxHeartbeats 4000000 in
theorem V1_arg6 (c : Dev nD) : (V1 m ρ c main_arg6 : S256x128.Idx → EReal) = m ((c : Thread nD τ).loc main_arg6) := by
  dsimp only [V1, W1, hostOps0]
  after_results
set_option maxHeartbeats 4000000 in
theorem V1_arg7 (c : Dev nD) : (V1 m ρ c main_arg7 : S128.Idx → EReal) = m ((c : Thread nD τ).loc main_arg7) := by
  dsimp only [V1, W1, hostOps0]
  after_results

/-! ## Between the launches -/

set_option maxHeartbeats 4000000 in
theorem V3_v40 (c : Dev nD) : (V3 m ρ c main_v40 : S128.Idx → EReal)
    = scaleV (W2 m ρ c (Proc.devRef .tc main_v23_1)) (W2 m ρ c (Proc.devRef .tc main_arg8)) := by
  dsimp only [V3, W3, hostOps1]
  after_results
  rfl

set_option maxHeartbeats 4000000 in
theorem V3_v42 (c : Dev nD) : (V3 m ρ c main_v42 : S128.Idx → EReal)
    = shiftV (W2 m ρ c (Proc.devRef .tc main_v23_1)) (W2 m ρ c (Proc.devRef .tc main_arg8)) (W2 m ρ c (Proc.devRef .tc main_arg9)) := by
  dsimp only [V3, W3, hostOps1]
  after_results
  rfl

set_option maxHeartbeats 4000000 in
theorem V3_h (c : Dev nD) : (V3 m ρ c main_v23_0 : S50000x128.Idx → EReal) = W2 m ρ c (Proc.devRef .tc main_v23_0) := by
  dsimp only [V3, W3, hostOps1]
  after_results

/-- No host operation before the MLP launch writes the scale argument or the offset argument, and the launch does not
    either: at the boundary after it they hold their launch contents. -/
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

end Cert.KernelIdeal.HostRun

end
-- ==== Proof.LibSoftmaxRow.lean ====
/-
  One row of softmax attention on the extended reals: normalising the weights before or after the weighted sum.

  A row of scores `t k` (k over the keys) and a column of values `v k` give the output
  `∑ₖ softmax(t)ₖ · vₖ`, where `softmax(t)ₖ = exp (tₖ - M) / L`, `M = maxₖ tₖ` (taken from `-∞`) and `L = ∑ₖ exp (tₖ - M)`.
  The quotient by `L` may be taken of every weight before the weighted sum (`attnNormalised`), or once of the weighted
  sum (`attnDeferred`): on the extended reals the two agree as soon as every score and every value is a real number
  (`attnNormalised_eq_attnDeferred`), because then `M` is a real (a maximum of at least one real), every weight
  `exp (tₖ - M)` is a positive real, `L` is a positive real, and a quotient by a nonzero real is the product with its
  reciprocal, which distributes over a finite sum of reals. (At an infinite entry the two can differ, which is why the
  hypothesis is there.) Also: `IsReal`, the extended reals that are real numbers, closed under sums and products; the
  coercion of a finite sum; the f32 pattern of `-∞` is `⊥`. Nothing here mentions a program.
-/
import Idealize.ShloMosaic.PureOps.Ideal
import Idealize.ShloMosaic.PureOps.Ideal.Laws

noncomputable section

namespace Cert.SoftmaxRow

open Idealize.ShloMosaic

/-! ## Reals inside the extended reals -/

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with a finite sum. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem isReal_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-! ## The pattern of `-∞` -/

/-- The pattern of `-∞` is the bottom of the extended reals. -/
theorem ofBits_negInf : Ideal.ofBits .f32 0xFF800000#32 = ⊥ := by
  simp [Ideal.ofBits, Ideal.ieee]

/-! ## One row -/

variable {n : ℕ}

/-- The row's maximum, from `-∞`. -/
def rowMax (t : Fin n → EReal) : EReal := (Finset.univ : Finset (Fin n)).fold max ⊥ t

/-- The unnormalised weight of key `k`. -/
def rowWt (t : Fin n → EReal) (k : Fin n) : EReal := Ideal.exp (t k - rowMax t)

/-- The normaliser: the sum of the weights. -/
def rowDen (t : Fin n → EReal) : EReal := ∑ k, rowWt t k

/-- The weighted sum of the values, divided once by the normaliser. -/
def attnDeferred (t v : Fin n → EReal) : EReal := Ideal.div (∑ k, rowWt t k * v k) (rowDen t)

/-- Every weight divided by the normaliser, then the weighted sum. -/
def attnNormalised (t v : Fin n → EReal) : EReal := ∑ k, Ideal.div (rowWt t k) (rowDen t) * v k

/-- The maximum of at least one real is a real. -/
theorem rowMax_coe (hn : 0 < n) (t : Fin n → ℝ) : IsReal (rowMax fun k => (t k : EReal)) := by
  unfold rowMax
  have hlt : (Finset.univ : Finset (Fin n)).fold max (⊥ : EReal) (fun k => (t k : EReal)) < ⊤ :=
    (Finset.fold_max_lt _).mpr ⟨bot_lt_top, fun k _ => EReal.coe_lt_top _⟩
  have hge : ((t ⟨0, hn⟩ : ℝ) : EReal) ≤ (Finset.univ : Finset (Fin n)).fold max (⊥ : EReal) (fun k => (t k : EReal)) :=
    (Finset.le_fold_max _).mpr (Or.inr ⟨⟨0, hn⟩, Finset.mem_univ _, le_rfl⟩)
  have hne : (Finset.univ : Finset (Fin n)).fold max (⊥ : EReal) (fun k => (t k : EReal)) ≠ ⊥ := fun h => by
    rw [h] at hge
    exact EReal.coe_ne_bot _ (le_bot_iff.mp hge)
  exact ⟨_, (EReal.coe_toReal hlt.ne hne).symm⟩

/-- THE LAW: with real scores and real values, normalising the weights first or the weighted sum afterwards
    is the same extended real. -/
theorem attnNormalised_eq_attnDeferred (hn : 0 < n) (t v : Fin n → EReal) (ht : ∀ k, IsReal (t k)) (hv : ∀ k, IsReal (v k)) :
    attnNormalised t v = attnDeferred t v := by
  choose t' ht' using ht
  choose v' hv' using hv
  obtain rfl : t = fun k => (t' k : EReal) := funext ht'
  obtain rfl : v = fun k => (v' k : EReal) := funext hv'
  obtain ⟨M, hM⟩ := rowMax_coe hn t'
  have hw : ∀ k, rowWt (fun k => (t' k : EReal)) k = ((Real.exp (t' k - M) : ℝ) : EReal) := fun k => by
    unfold rowWt
    rw [hM, ← EReal.coe_sub, Ideal.exp_coe]
  have hL : rowDen (fun k => (t' k : EReal)) = ((∑ k, Real.exp (t' k - M) : ℝ) : EReal) := by
    unfold rowDen
    rw [coe_sum]
    exact Finset.sum_congr rfl fun k _ => hw k
  have hpos : (∑ k : Fin n, Real.exp (t' k - M)) ≠ 0 :=
    (Finset.sum_pos (fun k _ => Real.exp_pos _) ⟨⟨0, hn⟩, Finset.mem_univ _⟩).ne'
  unfold attnNormalised attnDeferred
  rw [hL, Ideal.div_coe hpos]
  simp only [hw, Ideal.div_coe hpos, ← EReal.coe_mul, ← coe_sum]
  congr 1
  rw [Finset.sum_mul]
  exact Finset.sum_congr rfl fun k _ => by ring

end Cert.SoftmaxRow

end
-- ==== Proof.HostRead.lean ====
/-
  The host-stage arrays read at an entry, on the extended reals.

  Before the first launch: the adjusted aggregate at (n, q) is the node aggregate plus the in-degree of n times entry q of
  the edge bias (two double broadcasts read back to one coordinate each); the constant operands of the accumulating
  scatters are the constant functions zero and one; every gathered entry is an entry of the array gathered from.
  Between the launches: the statistics summed over the ten tiles, their two rows as column sums, and the multiplier and
  offset of the normalisation as the folded coefficients of the specification module, from the column's sum and sum of
  squares.
-/
import proofs.«173729_j1039382086070_2_alg».proof.Proof.HostDefs
import proofs.«173729_j1039382086070_2_alg».proof.Proof.Form
import proofs.«173729_j1039382086070_2_alg».proof.Proof.Consts
import proofs.«173729_j1039382086070_2_alg».proof.Proof.LibSoftmaxRow
import Idealize.ShloMosaic.Lib.Pipeline.Value
import Idealize.ShloMosaic.Lib.ValueIdx

noncomputable section

namespace Cert.KernelIdeal.HostRead

open Cert.KernelIdeal Cert.KernelIdeal.HostRun Cert.GinForm Cert.SoftmaxRow Idealize.ShloMosaic Idealize.ShloMosaic.ValueIdx

/-! ## Before the first launch -/

/-- The in-degree broadcast along the rows, read at (n, q), is the in-degree of node n. -/
theorem degBroadcast_apply (v : FVec Ideal S50000 .f32) (n : Fin 50000) (q : Fin 128) :
    broadcastInDim S50000x128 ![0, 1] Gen.bcast_S50000x1_S50000x128_0_1
        (broadcastInDim S50000x1 ![0] Gen.bcast_S50000_S50000x1_0 v) (ix2 n q) = v (ix1 n) := by
  refine (broadcastInDim_apply _ Gen.bcast_S50000x1_S50000x128_0_1 _ (ix2 n q) (ix2 n (0 : Fin 1)) (fun a => match a with
    | ⟨0, _⟩ => by show n.val = if (50000 : Nat) = 1 then 0 else n.val; rw [if_neg (by decide)]
    | ⟨1, _⟩ => by show 0 = if (1 : Nat) = 1 then 0 else q.val; rw [if_pos rfl])).trans ?_
  exact broadcastInDim_apply _ Gen.bcast_S50000_S50000x1_0 v (ix2 n (0 : Fin 1)) (ix1 n) (fun a => match a with
    | ⟨0, _⟩ => by show n.val = if (50000 : Nat) = 1 then 0 else n.val; rw [if_neg (by decide)])

/-- The edge bias broadcast down the rows, read at (n, q), is its entry q. -/
theorem biasBroadcast_apply (v : FVec Ideal S128 .f32) (n : Fin 50000) (q : Fin 128) :
    broadcastInDim S50000x128 ![0, 1] Gen.bcast_S1x128_S50000x128_0_1
        (broadcastInDim S1x128 ![1] Gen.bcast_S128_S1x128_1 v) (ix2 n q) = v (ix1 q) := by
  refine (broadcastInDim_apply _ Gen.bcast_S1x128_S50000x128_0_1 _ (ix2 n q) (ix2 (0 : Fin 1) q) (fun a => match a with
    | ⟨0, _⟩ => by show 0 = if (1 : Nat) = 1 then 0 else n.val; rw [if_pos rfl]
    | ⟨1, _⟩ => by show q.val = if (128 : Nat) = 1 then 0 else q.val; rw [if_neg (by decide)])).trans ?_
  exact broadcastInDim_apply _ Gen.bcast_S128_S1x128_1 v (ix2 (0 : Fin 1) q) (ix1 q) (fun a => match a with
    | ⟨0, _⟩ => by show q.val = if (128 : Nat) = 1 then 0 else q.val; rw [if_neg (by decide)])

/-- The adjusted aggregate at (n, q): the node aggregate plus the in-degree of n times entry q of the edge bias. -/
theorem aggAdj_apply (x0 : FVec Ideal S50000x128 .f32) (x3 : FVec Ideal S128 .f32) (x10 x11 : IVec S800000 32)
    (n : Fin 50000) (q : Fin 128) :
    aggAdj x0 x3 x10 x11 (ix2 n q) = aggNodes x0 x10 x11 (ix2 n q) + deg x11 (ix1 n) * x3 (ix1 q) := by
  unfold aggAdj
  rw [addf_apply, mulf_apply, degBroadcast_apply, biasBroadcast_apply]

/-- The zero constant broadcast to the node array is zero everywhere. -/
theorem zeros_S50000x128 :
    broadcastInDim S50000x128 ![] Gen.bcast_S_S50000x128 (constant (F := Ideal) S_ .f32 0x00000000#32) = fun _ => (0 : EReal) :=
  funext fun _ => Cert.GinConsts.ofBits_zero

/-- The zero constant broadcast to the edge-feature aggregate's shape is zero everywhere. -/
theorem zeros_S50000x16 :
    broadcastInDim S50000x16 ![] Gen.bcast_S_S50000x16 (constant (F := Ideal) S_ .f32 0x00000000#32) = fun _ => (0 : EReal) :=
  funext fun _ => Cert.GinConsts.ofBits_zero

/-- The zero constant broadcast to the in-degree's shape is zero everywhere. -/
theorem zeros_S50000 :
    broadcastInDim S50000 ![] Gen.bcast_S_S50000 (constant (F := Ideal) S_ .f32 0x00000000#32) = fun _ => (0 : EReal) :=
  funext fun _ => Cert.GinConsts.ofBits_zero

/-- The constant one broadcast over the edges is one everywhere. -/
theorem ones_S800000 :
    broadcastInDim S800000 ![] Gen.bcast_S_S800000 (constant (F := Ideal) S_ .f32 0x3F800000#32) = fun _ => (1 : EReal) :=
  funext fun _ => Cert.GinConsts.ofBits_one

/-- Every gathered entry is an entry of the gathered-from array, so real entries stay real. -/
theorem gathered_isReal (x0 : FVec Ideal S50000x128 .f32) (x10 : IVec S800000 32) (h : ∀ i, IsReal (x0 i))
    (j : S800000x128.Idx) : IsReal (gathered x0 x10 j) :=
  h _

/-! ## Between the launches -/

/-- The summed statistics at (s, d): the sum over the ten tiles. -/
theorem statsSum_apply (St : FVec Ideal S10x2x128 .f32) (s : Fin 2) (d : Fin 128) :
    statsSum St (ix2 s d) = ∑ t : Fin 10, St (ix3 t s d) := by
  unfold statsSum
  simp only [Host.reduceAdd, Ideal.hostReduceAdd_def]
  rw [Ideal.hostReduceAdd_single Gen.reducesTo_S10x2x128_S2x128_d0 (by decide)]
  simp only [constant, Ideal.ofBits_def, Cert.GinConsts.ofBits_zero, zero_add]
  refine Finset.sum_congr rfl fun k _ => ?_
  exact congrArg St (funext fun a => Fin.ext (by match a with | ⟨0, _⟩ => rfl | ⟨1, _⟩ => rfl | ⟨2, _⟩ => rfl))

/-- The column sums of h at d: row 0 of the summed statistics. -/
theorem colSum0_apply (St : FVec Ideal S10x2x128 .f32) (d : Fin 128) :
    colSum0 St (ix1 d) = ∑ t : Fin 10, St (ix3 t 0 d) := by
  unfold colSum0
  refine (shapeCast_dropUnit_apply ![128] _ Gen.shapeCasts_S1x128_S128 (ix1 d)).trans ?_
  refine (extractStridedSlice_apply ![0, 0] (statsSum St) Gen.slices_S2x128_S1x128_0_0 _ (ix2 (0 : Fin 2) d)
    (fun a => match a with
      | ⟨0, _⟩ => by show (0 : Nat) = 0 + 0; rfl
      | ⟨1, _⟩ => by show d.val = 0 + d.val; omega)).trans ?_
  exact statsSum_apply St 0 d

/-- The column sums of the squares at d: row 1 of the summed statistics. -/
theorem colSum1_apply (St : FVec Ideal S10x2x128 .f32) (d : Fin 128) :
    colSum1 St (ix1 d) = ∑ t : Fin 10, St (ix3 t 1 d) := by
  unfold colSum1
  refine (shapeCast_dropUnit_apply ![128] _ Gen.shapeCasts_S1x128_S128 (ix1 d)).trans ?_
  refine (extractStridedSlice_apply ![1, 0] (statsSum St) Gen.slices_S2x128_S1x128_1_0 _ (ix2 (1 : Fin 2) d)
    (fun a => match a with
      | ⟨0, _⟩ => by show (1 : Nat) = 1 + 0; rfl
      | ⟨1, _⟩ => by show d.val = 0 + d.val; omega)).trans ?_
  exact statsSum_apply St 1 d

/-- The multiplier at d, from the column's sum and sum of squares over the ten tiles. -/
theorem scaleV_apply (St : FVec Ideal S10x2x128 .f32) (g : FVec Ideal S128 .f32) (d : Fin 128) :
    scaleV St g (ix1 d)
      = bnScale (∑ t : Fin 10, St (ix3 t 0 d)) (∑ t : Fin 10, St (ix3 t 1 d)) (g (ix1 d)) := by
  have h : scaleV St g (ix1 d)
      = g (ix1 d) * Ideal.rsqrt (max (Ideal.div (colSum1 St (ix1 d)) cN
            - Ideal.div (colSum0 St (ix1 d)) cN * Ideal.div (colSum0 St (ix1 d)) cN) (Ideal.ofBits .f32 0x00000000#32)
          + cEps) := rfl
  rw [h, colSum0_apply, colSum1_apply, Cert.GinConsts.ofBits_zero]
  rfl

/-- The offset at d. -/
theorem shiftV_apply (St : FVec Ideal S10x2x128 .f32) (g b : FVec Ideal S128 .f32) (d : Fin 128) :
    shiftV St g b (ix1 d)
      = bnShift (∑ t : Fin 10, St (ix3 t 0 d)) (∑ t : Fin 10, St (ix3 t 1 d)) (g (ix1 d)) (b (ix1 d)) := by
  have h : shiftV St g b (ix1 d) = b (ix1 d) - Ideal.div (colSum0 St (ix1 d)) cN * scaleV St g (ix1 d) := rfl
  rw [h, scaleV_apply, colSum0_apply]
  rfl

end Cert.KernelIdeal.HostRead

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.KernelValue.lean ====
/-
  The idealized kernel's result array as one function of the argument arrays, and that function at an entry.

  Following the buffers through the four segments: the host stages before the first launch give the adjusted node
  aggregate and the edge aggregate; the MLP launch leaves the perceptron's output `h` and its per-tile statistics; the
  host stages between the launches fold the statistics into a multiplier and an offset per column; the affine launch
  leaves `h * multiplier + offset`. At entry `(n, d)` the per-tile sums regroup into sums over all 50000 rows, so the
  result is `h(n, d)` times the kernel's multiplier of column `d` plus its offset.
-/
import proofs.«173729_j1039382086070_2_alg».proof.Proof.Blocks
import proofs.«173729_j1039382086070_2_alg».proof.Proof.HostRun
import proofs.«173729_j1039382086070_2_alg».proof.Proof.HostRead
import proofs.«173729_j1039382086070_2_alg».proof.Proof.LibSumBlocks

set_option maxRecDepth 16384

noncomputable section

namespace Cert.KernelIdeal.KernelValue

open Cert.KernelIdeal Cert.KernelIdeal.Gen Cert.GinForm Cert.KernelIdeal.Blocks Cert.KernelIdeal.HostRun Cert.KernelIdeal.HostRead
open Idealize.ShloMosaic Idealize.ShloMosaic.TcCoe Idealize.ShloMosaic.ValueIdx Idealize.SL.Sem

/-- The kernel's `h` of the argument arrays. -/
def hK (a0 : FVec Ideal S50000x128 .f32) (a1 : FVec Ideal S800000x16 .f32) (a2 : FVec Ideal S16x128 .f32)
    (a3 : FVec Ideal S128 .f32) (a4 : FVec Ideal S128x256 .f32) (a5 : FVec Ideal S256 .f32) (a6 : FVec Ideal S256x128 .f32)
    (a7 : FVec Ideal S128 .f32) (a10 a11 : IVec S800000 32) : S50000x128.Idx → EReal :=
  hForm (aggAdj a0 a3 a10 a11) (aggEdge a1 a11) a2 a4 a5 a6 a7

/-- The kernel's result of the argument arrays. -/
def outK (a0 : FVec Ideal S50000x128 .f32) (a1 : FVec Ideal S800000x16 .f32) (a2 : FVec Ideal S16x128 .f32)
    (a3 : FVec Ideal S128 .f32) (a4 : FVec Ideal S128x256 .f32) (a5 : FVec Ideal S256 .f32) (a6 : FVec Ideal S256x128 .f32)
    (a7 a8 a9 : FVec Ideal S128 .f32) (a10 a11 : IVec S800000 32) : S50000x128.Idx → EReal :=
  affine (hK a0 a1 a2 a3 a4 a5 a6 a7 a10 a11) (scaleV (statForm (hK a0 a1 a2 a3 a4 a5 a6 a7 a10 a11)) a8)
    (shiftV (statForm (hK a0 a1 a2 a3 a4 a5 a6 a7 a10 a11)) a8 a9)

variable (m : (ℓ : Loc nD τ sig) → Buf (Elt Ideal) ℓ) (ρ : Dev nD → PrngReg)

/-- The result buffer at the last boundary is `outK` of the launch contents of the arguments. -/
theorem result_eq (c : Dev nD) : W4 m ρ c (Proc.devRef .tc main_v43)
    = outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) := by
  rw [Cert.KernelIdeal.RunValue.W4_result, final1 (V3 m ρ) c]
  unfold G1
  rw [V3_h m ρ c, V3_v40 m ρ c, V3_v42 m ρ c, Cert.KernelIdeal.RunValue.W2_h, Cert.KernelIdeal.RunValue.W2_stats,
    W2_arg8 m ρ c, W2_arg9 m ρ c, final7 (V1 m ρ) c, final8 (V1 m ρ) c]
  unfold G8 G7
  rw [V1_v22 m ρ c, V1_v12 m ρ c, V1_arg2 m ρ c, V1_arg4 m ρ c, V1_arg5 m ρ c, V1_arg6 m ρ c, V1_arg7 m ρ c]
  rfl

/-- Ten tiles of 5000 rows are the 50000 rows. -/
theorem tile_sum (f : Fin 50000 → EReal) : ∑ t : Fin 10, ∑ r : Fin 5000, f (rowOf t r) = ∑ n, f n := by
  rw [Cert.Lib.SumBlocks.sum_fin_blocks 10 5000 (by norm_num) f,
    ← Fin.sum_univ_eq_sum_range (fun s => ∑ q : Fin 5000, Cert.Lib.SumBlocks.onNat f (s * 5000 + q.val)) 10]
  refine Finset.sum_congr rfl fun t _ => Finset.sum_congr rfl fun r _ => ?_
  exact (Cert.Lib.SumBlocks.onNat_of_lt f _ (rowOf t r).isLt).symm

theorem tile_sum0 (H : S50000x128.Idx → EReal) (d : Fin 128) :
    ∑ t : Fin 10, statForm H (ix3 t 0 d) = ∑ n : Fin 50000, H (ix2 n d) := by
  simp only [statForm_zero]
  exact tile_sum fun n => H (ix2 n d)

theorem tile_sum1 (H : S50000x128.Idx → EReal) (d : Fin 128) :
    ∑ t : Fin 10, statForm H (ix3 t 1 d) = ∑ n : Fin 50000, H (ix2 n d) * H (ix2 n d) := by
  simp only [statForm_one]
  exact tile_sum fun n => H (ix2 n d) * H (ix2 n d)

section
variable (a0 : FVec Ideal S50000x128 .f32) (a1 : FVec Ideal S800000x16 .f32) (a2 : FVec Ideal S16x128 .f32)
    (a3 : FVec Ideal S128 .f32) (a4 : FVec Ideal S128x256 .f32) (a5 : FVec Ideal S256 .f32) (a6 : FVec Ideal S256x128 .f32)
    (a7 a8 a9 : FVec Ideal S128 .f32) (a10 a11 : IVec S800000 32)

/-- Entry `(n, d)` of the kernel's `h`. -/
theorem hK_apply (n : Fin 50000) (d : Fin 128) : hK a0 a1 a2 a3 a4 a5 a6 a7 a10 a11 (ix2 n d)
    = mlpRow a4 a5 a6 a7 (fun q => aggAdj a0 a3 a10 a11 (ix2 n q) + ∑ k : Fin 16, aggEdge a1 a11 (ix2 n k) * a2 (ix2 k q)) d := rfl

/-- Entry `(n, d)` of the kernel's result. -/
theorem outK_apply (n : Fin 50000) (d : Fin 128) : outK a0 a1 a2 a3 a4 a5 a6 a7 a8 a9 a10 a11 (ix2 n d)
    = hK a0 a1 a2 a3 a4 a5 a6 a7 a10 a11 (ix2 n d)
        * bnScale (∑ n', hK a0 a1 a2 a3 a4 a5 a6 a7 a10 a11 (ix2 n' d))
            (∑ n', hK a0 a1 a2 a3 a4 a5 a6 a7 a10 a11 (ix2 n' d) * hK a0 a1 a2 a3 a4 a5 a6 a7 a10 a11 (ix2 n' d)) (a8 (ix1 d))
      + bnShift (∑ n', hK a0 a1 a2 a3 a4 a5 a6 a7 a10 a11 (ix2 n' d))
            (∑ n', hK a0 a1 a2 a3 a4 a5 a6 a7 a10 a11 (ix2 n' d) * hK a0 a1 a2 a3 a4 a5 a6 a7 a10 a11 (ix2 n' d)) (a8 (ix1 d)) (a9 (ix1 d)) := by
  show hK a0 a1 a2 a3 a4 a5 a6 a7 a10 a11 (ix2 n d)
      * scaleV (statForm (hK a0 a1 a2 a3 a4 a5 a6 a7 a10 a11)) a8 (ix1 d)
    + shiftV (statForm (hK a0 a1 a2 a3 a4 a5 a6 a7 a10 a11)) a8 a9 (ix1 d) = _
  rw [scaleV_apply, shiftV_apply, tile_sum0, tile_sum1]

end

end Cert.KernelIdeal.KernelValue

end
-- ==== Proof.RefForm.lean ====
/-
  The reference's result read at an entry, in the shapes of the specification module.

  The reference computes, per edge, the gathered source row plus the edge's embedding row (a product with the edge
  weights plus a bias), sums these messages into the rows their edges point at, applies the two-layer perceptron row by
  row, and normalises every column over the 50000 nodes (centre by the column mean, scale by the reciprocal root of the
  mean squared deviation plus epsilon, then an affine map). The gather and the accumulating scatter stay unopened: the
  aggregated array is named as the scatter of the messages into zeros. Every other operation is read at an index, so
  that the result at (n, d) is the normalisation of column d of the perceptron's output, read at n.
-/
import proofs.«173729_j1039382086070_2_alg».proof.Proof.Gen.ReferenceIdeal.Read
import proofs.«173729_j1039382086070_2_alg».proof.Proof.Form
import proofs.«173729_j1039382086070_2_alg».proof.Proof.Consts

noncomputable section

namespace Cert.RefForm

open Cert.ReferenceIdeal Cert.ReferenceIdeal.Read Cert.GinForm Idealize.ShloMosaic Idealize.ShloMosaic.ValueIdx
open Idealize.SL.Sem

variable (x0 : (⟨S50000x128, .f32⟩ : BufTy).Contents (Elt Ideal)) (x1 : (⟨S800000x16, .f32⟩ : BufTy).Contents (Elt Ideal))
  (x2 : (⟨S16x128, .f32⟩ : BufTy).Contents (Elt Ideal)) (x3 : (⟨S128, .f32⟩ : BufTy).Contents (Elt Ideal))
  (x4 : (⟨S128x256, .f32⟩ : BufTy).Contents (Elt Ideal)) (x5 : (⟨S256, .f32⟩ : BufTy).Contents (Elt Ideal))
  (x6 : (⟨S256x128, .f32⟩ : BufTy).Contents (Elt Ideal)) (x7 x8 x9 : (⟨S128, .f32⟩ : BufTy).Contents (Elt Ideal))
  (x10 x11 : (⟨S800000, .i32⟩ : BufTy).Contents (Elt Ideal))

/-- The per-edge message the reference scatters: the gathered source entry plus the edge's embedding entry. -/
def msg : S800000x128.Idx → EReal := fun j =>
  val_main_v10 (F := Ideal) x0 x10 j
    + ((∑ k : Fin 16, x1 (ix2 (j 0) k) * x2 (ix2 k (j 1))) + x3 (ix1 (j 1)))

/-- The aggregated array: the accumulating scatter of the messages into zeros, left unopened. -/
def aggRef : S50000x128.Idx → EReal :=
  Host.scatterAdd (F := Ideal) (φ := .f32) scatter_S50000x128_S800000x1_S800000x128_1_0_0_1 (val_main_v12 (F := Ideal))
    (val_main_v13 (F := Ideal) x11) (msg x0 x1 x2 x3 x10)

/-- The array the reference scatters is the message array: the sum of the gathered entry and the embedding entry,
    the embedding's product read as a sum over the 16 edge features and its bias at the column. -/
theorem val_v11_eq : val_main_v11 (F := Ideal) x0 x1 x2 x3 x10 = msg x0 x1 x2 x3 x10 := by
  funext j
  rw [val_main_v11_apply, val_main_v3_apply, val_main_v0_apply, val_main_v2_apply, val_main_v1_apply]
  have el : ∀ k : Fin 16, lidx_main_v0 j k = ix2 (j 0) k := fun k =>
    funext fun a => Fin.ext (by match a with | ⟨0, _⟩ => rfl | ⟨1, _⟩ => rfl)
  have er : ∀ k : Fin 16, ridx_main_v0 j k = ix2 k (j 1) := fun k =>
    funext fun a => Fin.ext (by match a with | ⟨0, _⟩ => rfl | ⟨1, _⟩ => rfl)
  have eb : idx_main_v1 (idx_main_v2 j) = ix1 (j 1) :=
    funext fun a => Fin.ext (by match a with | ⟨0, _⟩ => rfl)
  simp only [el, er, eb, Ideal.addf_def]
  rfl

/-- The reference's aggregated array is the named one. -/
theorem val_v14_eq : val_main_v14 (F := Ideal) x0 x1 x2 x3 x10 x11 = aggRef x0 x1 x2 x3 x10 x11 := by
  unfold val_main_v14 aggRef
  rw [val_v11_eq]

/-- The array the scatter accumulates into is zero everywhere. -/
theorem zeros_apply (i : S50000x128.Idx) : val_main_v12 (F := Ideal) i = 0 := by
  rw [val_main_v12_apply, val_main_cst_apply]
  exact Cert.GinConsts.ofBits_zero

/-- Entry (n, j) of the clamped hidden layer: the aggregated row n times column j of the first weights, plus the
    first bias, clamped below at zero. -/
theorem relu_apply (n : Fin 50000) (j : Fin 256) :
    val_main_v19 (F := Ideal) x0 x1 x2 x3 x4 x5 x10 x11 (ix2 n j)
      = max ((∑ i : Fin 128, aggRef x0 x1 x2 x3 x10 x11 (ix2 n i) * x4 (ix2 i j)) + x5 (ix1 j)) 0 := by
  rw [val_main_v19_apply, val_main_v18_apply, val_main_v15_apply, val_main_v17_apply, val_main_v16_apply,
    val_main_call0_v0_apply, val_main_call0_cst_apply, val_v14_eq]
  have el : ∀ k : Fin 128, lidx_main_v15 (ix2 n j) k = ix2 n k := fun k =>
    funext fun a => Fin.ext (by match a with | ⟨0, _⟩ => rfl | ⟨1, _⟩ => rfl)
  have er : ∀ k : Fin 128, ridx_main_v15 (ix2 n j) k = ix2 k j := fun k =>
    funext fun a => Fin.ext (by match a with | ⟨0, _⟩ => rfl | ⟨1, _⟩ => rfl)
  have eb : idx_main_v16 (idx_main_v17 (ix2 n j)) = ix1 j :=
    funext fun a => Fin.ext (by match a with | ⟨0, _⟩ => rfl)
  simp only [el, er, eb, Ideal.addf_def, Ideal.maximumf_def, Ideal.ofBits_def, Cert.GinConsts.ofBits_zero]

/-- Entry (n, d) of the perceptron's output is the perceptron applied to the aggregated row n, read at d. -/
theorem h_apply (n : Fin 50000) (d : Fin 128) :
    val_main_v23 (F := Ideal) x0 x1 x2 x3 x4 x5 x6 x7 x10 x11 (ix2 n d)
      = mlpRow x4 x5 x6 x7 (fun i => aggRef x0 x1 x2 x3 x10 x11 (ix2 n i)) d := by
  rw [val_main_v23_apply, val_main_v20_apply, val_main_v22_apply, val_main_v21_apply]
  have el : ∀ k : Fin 256, lidx_main_v20 (ix2 n d) k = ix2 n k := fun k =>
    funext fun a => Fin.ext (by match a with | ⟨0, _⟩ => rfl | ⟨1, _⟩ => rfl)
  have er : ∀ k : Fin 256, ridx_main_v20 (ix2 n d) k = ix2 k d := fun k =>
    funext fun a => Fin.ext (by match a with | ⟨0, _⟩ => rfl | ⟨1, _⟩ => rfl)
  have eb : idx_main_v21 (idx_main_v22 (ix2 n d)) = ix1 d :=
    funext fun a => Fin.ext (by match a with | ⟨0, _⟩ => rfl)
  simp only [el, er, eb, Ideal.addf_def, relu_apply]
  rfl

/-- Column d of the perceptron's output, over the 50000 nodes. -/
def hCol (d : Fin 128) : Fin 50000 → EReal := fun n' =>
  mlpRow x4 x5 x6 x7 (fun i => aggRef x0 x1 x2 x3 x10 x11 (ix2 n' i)) d

/-- The perceptron's output at (n, d) is entry n of column d. -/
theorem h_apply_col (n : Fin 50000) (d : Fin 128) :
    val_main_v23 (F := Ideal) x0 x1 x2 x3 x4 x5 x6 x7 x10 x11 (ix2 n d) = hCol x0 x1 x2 x3 x4 x5 x6 x7 x10 x11 d n :=
  h_apply x0 x1 x2 x3 x4 x5 x6 x7 x10 x11 n d

/-- Entry d of the column means: the column's sum (from a zero initial value) divided by the node count. -/
theorem mean_apply (d : Fin 128) :
    val_main_v26 (F := Ideal) x0 x1 x2 x3 x4 x5 x6 x7 x10 x11 (ix1 d)
      = colMean (hCol x0 x1 x2 x3 x4 x5 x6 x7 x10 x11 d) := by
  rw [val_main_v26_apply, val_main_v24_apply, val_main_v25_apply, val_main_cst_2_apply, val_main_cst_1_apply]
  have e : ∀ k : Fin 50000, idx_main_v24 (ix1 d) k = ix2 k d := fun k =>
    funext fun a => Fin.ext (by match a with | ⟨0, _⟩ => rfl | ⟨1, _⟩ => rfl)
  simp only [e, h_apply_col, Ideal.hostDivf_def, Ideal.ofBits_def, Cert.GinConsts.ofBits_zero, zero_add]
  unfold colMean
  rfl

/-- Entry (n, d) of the centred array, as the variance's sum reads it. -/
theorem centred_apply (n : Fin 50000) (d : Fin 128) :
    val_main_v29 (F := Ideal) x0 x1 x2 x3 x4 x5 x6 x7 x10 x11 (ix2 n d)
      = hCol x0 x1 x2 x3 x4 x5 x6 x7 x10 x11 d n - colMean (hCol x0 x1 x2 x3 x4 x5 x6 x7 x10 x11 d) := by
  rw [val_main_v29_apply, val_main_v28_apply, val_main_v27_apply]
  have e : idx_main_v27 (idx_main_v28 (ix2 n d)) = ix1 d :=
    funext fun a => Fin.ext (by match a with | ⟨0, _⟩ => rfl)
  rw [e, mean_apply, h_apply_col, Ideal.subf_def]

/-- Entry (n, d) of the centred array, as the normalisation reads it: the same value through a second broadcast. -/
theorem centred_apply' (n : Fin 50000) (d : Fin 128) :
    val_main_v36 (F := Ideal) x0 x1 x2 x3 x4 x5 x6 x7 x10 x11 (ix2 n d)
      = hCol x0 x1 x2 x3 x4 x5 x6 x7 x10 x11 d n - colMean (hCol x0 x1 x2 x3 x4 x5 x6 x7 x10 x11 d) := by
  rw [val_main_v36_apply, val_main_v35_apply, val_main_v34_apply]
  have e : idx_main_v34 (idx_main_v35 (ix2 n d)) = ix1 d :=
    funext fun a => Fin.ext (by match a with | ⟨0, _⟩ => rfl)
  rw [e, mean_apply, h_apply_col, Ideal.subf_def]

/-- Entry d of the column variances: the sum of squared deviations (from a zero initial value) divided by the node count. -/
theorem var_apply (d : Fin 128) :
    val_main_v33 (F := Ideal) x0 x1 x2 x3 x4 x5 x6 x7 x10 x11 (ix1 d)
      = Ideal.div (∑ n' : Fin 50000,
            (hCol x0 x1 x2 x3 x4 x5 x6 x7 x10 x11 d n' - colMean (hCol x0 x1 x2 x3 x4 x5 x6 x7 x10 x11 d))
              * (hCol x0 x1 x2 x3 x4 x5 x6 x7 x10 x11 d n' - colMean (hCol x0 x1 x2 x3 x4 x5 x6 x7 x10 x11 d))) cN := by
  rw [val_main_v33_apply, val_main_v31_apply, val_main_v32_apply, val_main_cst_4_apply, val_main_cst_3_apply]
  rw [Ideal.hostDivf_def, Ideal.ofBits_def, Ideal.ofBits_def, Cert.GinConsts.ofBits_zero, zero_add]
  refine congrArg (fun s => Ideal.div s cN) (Finset.sum_congr rfl fun k _ => ?_)
  have e : idx_main_v31 (ix1 d) k = ix2 k d :=
    funext fun a => Fin.ext (by match a with | ⟨0, _⟩ => rfl | ⟨1, _⟩ => rfl)
  rw [e, val_main_v30_apply, centred_apply, Ideal.mulf_def]

/-- The reference's result at entry (n, d), over the named column: centre, scale by the reciprocal root of the
    variance plus epsilon, then the affine map with the scale and offset entries d. -/
theorem out_apply_col (n : Fin 50000) (d : Fin 128) :
    val_main_v48 (F := Ideal) x0 x1 x2 x3 x4 x5 x6 x7 x8 x9 x10 x11 (ix2 n d)
      = bnRef (hCol x0 x1 x2 x3 x4 x5 x6 x7 x10 x11 d) (x8 (ix1 d)) (x9 (ix1 d)) n := by
  rw [val_main_v48_apply, val_main_v45_apply, val_main_v42_apply, val_main_v47_apply, val_main_v46_apply,
    val_main_v44_apply, val_main_v43_apply, val_main_v41_apply, val_main_v40_apply, val_main_v39_apply,
    val_main_v38_apply, val_main_v37_apply, val_main_cst_5_apply]
  have e8 : idx_main_v43 (idx_main_v44 (ix2 n d)) = ix1 d :=
    funext fun a => Fin.ext (by match a with | ⟨0, _⟩ => rfl)
  have e9 : idx_main_v46 (idx_main_v47 (ix2 n d)) = ix1 d :=
    funext fun a => Fin.ext (by match a with | ⟨0, _⟩ => rfl)
  have er : idx_main_v40 (idx_main_v41 (ix2 n d)) = ix1 d :=
    funext fun a => Fin.ext (by match a with | ⟨0, _⟩ => rfl)
  rw [e8, e9, er, var_apply, centred_apply']
  rw [Ideal.addf_def, Ideal.mulf_def, Ideal.mulf_def, Ideal.hostUnary_rsqrt_def, Ideal.addf_def, Ideal.ofBits_def]
  unfold bnRef
  rfl

/-- The reference's result at entry (n, d): the batch normalisation of column d of the perceptron's output, read at n. -/
theorem out_apply (n : Fin 50000) (d : Fin 128) :
    val_main_v48 (F := Ideal) x0 x1 x2 x3 x4 x5 x6 x7 x8 x9 x10 x11 (ix2 n d)
      = bnRef (fun n' => mlpRow x4 x5 x6 x7 (fun i => aggRef x0 x1 x2 x3 x10 x11 (ix2 n' i)) d)
          (x8 (ix1 d)) (x9 (ix1 d)) n := by
  have h := out_apply_col x0 x1 x2 x3 x4 x5 x6 x7 x8 x9 x10 x11 n d
  unfold hCol at h
  exact h

end Cert.RefForm

end
-- ==== Proof.LibScatterRows.lean ====
/-
  THE HOST'S ACCUMULATING ROW SCATTER, READ AT COORDINATES (at the ideal instance; no program is mentioned).

  `stablehlo.scatter` with an `add` body, an operand of rows `[N, D]` (or a vector `[N]`), scatter indices a
  column `[E, 1]` of integers and updates `[E, D]` (or `[E]`), with update_window_dims `[1]` (or none),
  inserted_window_dims `[0]`, scatter_dims_to_operand_dims `[0]` and index_vector_dim `1`: update row `e` is added
  to operand row `idx[e, 0]`, the index read as a SIGNED integer and NOT clamped; a row whose index is negative or
  at least `N` is dropped. This is what a segment sum over `E` items into `N` segments is.

  Contents. `resultIdx_eq_some_iff`: for any dimension numbers, update index `j` lands at operand index `i` exactly
  when start plus window coordinate equals `i`'s coordinate on every axis, as integers. For the two records above: the
  start and the window coordinate on each axis as plain values (`start_rows_zero` … `window_vec_zero`), which update
  lands at which element (`resultIdx_rows_iff`, `resultIdx_vec_iff`), and the scatter read at an element as the
  operand's element plus a sum over the update rows `e` with `(idx (ix2 e 0)).toInt = n`
  (`scatterAdd_rows_apply`, `scatterAdd_vec_apply`). Every statement is generic in the extents, the index width and
  the float format, and holds for any witness of the dimension numbers' conditions.
-/
import Idealize.ShloMosaic.PureOps.Ideal
import Idealize.ShloMosaic.PureOps.Ideal.Laws
import Idealize.ShloMosaic.Lib.ValueIdx
import Mathlib

noncomputable section

open scoped BigOperators
open Idealize.ShloMosaic Idealize.ShloMosaic.ValueIdx

namespace ScatterRows

/-- The landing index of a scatter update, read as equations between integers: update index `j` lands at operand
    index `i` exactly when on every operand axis the window's signed start plus the window coordinate is `i`'s
    coordinate. -/
theorem resultIdx_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hb
      have h' := Option.some.inj h
      have ha : (d.start j idx a + (d.window j a : ℤ)).toNat = (i a).val := congrArg (fun f => (f a).val) h'
      have := (hb a).1
      omega
    · cases h
  · intro h
    have hb : ∀ a, 0 ≤ d.start j idx a + (d.window j a : ℤ) ∧ d.start j idx a + (d.window j a : ℤ) < s.size a := by
      intro a
      rw [h a]
      exact ⟨Int.natCast_nonneg _, by exact_mod_cast (i a).isLt⟩
    rw [dif_pos hb]
    congr 1
    funext a
    refine Fin.ext ?_
    show (d.start j idx a + (d.window j a : ℤ)).toNat = (i a).val
    rw [h a]
    exact Int.toNat_natCast _

section Rows
variable {N D E w : Nat}

/-- On the operand's row axis the window of update `(e, c')` starts at the index read at `(e, 0)`, as a signed
    integer. -/
theorem start_rows_zero (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- On the operand's column axis, which the index vector does not name, the window starts at `0`. -/
theorem start_rows_one (wf : ScatterDims.WF (⟨2, ![N, D]⟩ : Shape) ⟨2, ![E, 1]⟩ ⟨2, ![E, D]⟩ [1] [0] [0] 1)
    (idx : IVec ⟨2, ![E, 1]⟩ w) (e : Fin E) (c' : Fin D) :
    (⟨[1], [0], [0], 1, wf⟩ : ScatterDims ⟨2, ![N, D]⟩ ⟨2, ![E, 1]⟩ ⟨2, ![E, D]⟩).start (ix2 e c') idx 1 = 0 := by
  unfold ScatterDims.start
  rw [dif_neg (show (1 : Fin 2) ∉ ([0] : List (Fin 2)) by decide)]

/-- The row axis is an inserted window axis: the window coordinate on it is `0`. -/
theorem window_rows_zero (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 0 = 0 := by
  unfold ScatterDims.window
  exact dif_neg (show (0 : Fin 2) ∉ (List.finRange 2).filter (· ∉ ([0] : List (Fin 2))) by decide)

/-- On the column axis the window coordinate of update `(e, c')` is its column `c'`. -/
theorem window_rows_one (wf : ScatterDims.WF (⟨2, ![N, D]⟩ : Shape) ⟨2, ![E, 1]⟩ ⟨2, ![E, D]⟩ [1] [0] [0] 1)
    (e : Fin E) (c' : Fin D) :
    (⟨[1], [0], [0], 1, wf⟩ : ScatterDims ⟨2, ![N, D]⟩ ⟨2, ![E, 1]⟩ ⟨2, ![E, D]⟩).window (ix2 e c') 1 = c'.val := by
  unfold ScatterDims.window
  refine (dif_pos (show (1 : Fin 2) ∈ (List.finRange 2).filter (· ∉ ([0] : List (Fin 2))) by decide)).trans ?_
  rfl

/-- WHICH UPDATE LANDS WHERE, by rows: update `(e, c')` lands at operand element `(n, c)` exactly when the signed
    index read at `(e, 0)` is `n` and the columns agree. -/
theorem resultIdx_rows_iff (wf : ScatterDims.WF (⟨2, ![N, D]⟩ : Shape) ⟨2, ![E, 1]⟩ ⟨2, ![E, D]⟩ [1] [0] [0] 1)
    (idx : IVec ⟨2, ![E, 1]⟩ w) (e : Fin E) (c' : Fin D) (n : Fin N) (c : Fin D) :
    (⟨[1], [0], [0], 1, wf⟩ : ScatterDims ⟨2, ![N, D]⟩ ⟨2, ![E, 1]⟩ ⟨2, ![E, D]⟩).resultIdx? (ix2 e c') idx
        = some (ix2 n c)
      ↔ (idx (ix2 e 0)).toInt = (n : ℤ) ∧ c' = c := by
  rw [resultIdx_eq_some_iff]
  constructor
  · intro h
    have h0 := h 0
    have h1 := h 1
    rw [start_rows_zero, window_rows_zero] at h0
    rw [start_rows_one, window_rows_one] at h1
    have h0' : (idx (ix2 e 0)).toInt + ((0 : ℕ) : ℤ) = (n.val : ℤ) := h0
    have h1' : (0 : ℤ) + (c'.val : ℤ) = (c.val : ℤ) := h1
    refine ⟨by omega, Fin.ext (by omega)⟩
  · rintro ⟨h0, rfl⟩ a
    match a with
    | ⟨0, _⟩ =>
      show (⟨[1], [0], [0], 1, wf⟩ : ScatterDims ⟨2, ![N, D]⟩ ⟨2, ![E, 1]⟩ ⟨2, ![E, D]⟩).start (ix2 e c') idx 0
        + (((⟨[1], [0], [0], 1, wf⟩ : ScatterDims ⟨2, ![N, D]⟩ ⟨2, ![E, 1]⟩ ⟨2, ![E, D]⟩).window (ix2 e c') 0 : ℕ) : ℤ)
        = (n.val : ℤ)
      rw [start_rows_zero, window_rows_zero]
      omega
    | ⟨1, _⟩ =>
      show (⟨[1], [0], [0], 1, wf⟩ : ScatterDims ⟨2, ![N, D]⟩ ⟨2, ![E, 1]⟩ ⟨2, ![E, D]⟩).start (ix2 e c') idx 1
        + (((⟨[1], [0], [0], 1, wf⟩ : ScatterDims ⟨2, ![N, D]⟩ ⟨2, ![E, 1]⟩ ⟨2, ![E, D]⟩).window (ix2 e c') 1 : ℕ) : ℤ)
        = (c'.val : ℤ)
      rw [start_rows_one, window_rows_one]
      omega

/-- THE ROW SCATTER READ AT `(n, c)`: the operand's element plus the sum, over the update rows `e` whose signed index
    is `n`, of the update's element `(e, c)`. Rows whose index is negative or at least `N` meet no `n` and
    contribute nowhere. -/
theorem scatterAdd_rows_apply {φ : FTy}
    (wf : ScatterDims.WF (⟨2, ![N, D]⟩ : Shape) ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (F := Ideal)
        (⟨[1], [0], [0], 1, wf⟩ : ScatterDims ⟨2, ![N, D]⟩ ⟨2, ![E, 1]⟩ ⟨2, ![E, D]⟩) x idx upd (ix2 n c)
      = x (ix2 n c)
        + ∑ e ∈ Finset.univ.filter (fun e : Fin E => (idx (ix2 e 0)).toInt = (n : ℤ)), upd (ix2 e c) := by
  show x (ix2 n c) + ∑ j ∈ Finset.univ.filter (fun j =>
      (⟨[1], [0], [0], 1, wf⟩ : ScatterDims ⟨2, ![N, D]⟩ ⟨2, ![E, 1]⟩ ⟨2, ![E, D]⟩).resultIdx? j idx
        = some (ix2 n c)), upd j = _
  congr 1
  rw [Finset.sum_filter, sum_idx2, Finset.sum_filter]
  refine Finset.sum_congr rfl fun e _ => ?_
  refine (Finset.sum_congr rfl fun b _ => if_congr (resultIdx_rows_iff wf idx e b n c) rfl rfl).trans ?_
  by_cases hq : (idx (ix2 e 0)).toInt = (n : ℤ)
  · simp [hq]
  · simp [hq]

end Rows

section Vec
variable {N E w : Nat}

/-- A sum over a rank-1 index set is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- On the vector operand's one axis the window of update `e` starts at the index read at `(e, 0)`, as a signed
    integer. -/
theorem start_vec_zero (wf : ScatterDims.WF (⟨1, ![N]⟩ : Shape) ⟨2, ![E, 1]⟩ ⟨1, ![E]⟩ [] [0] [0] 1)
    (idx : IVec ⟨2, ![E, 1]⟩ w) (e : Fin E) :
    (⟨[], [0], [0], 1, wf⟩ : ScatterDims ⟨1, ![N]⟩ ⟨2, ![E, 1]⟩ ⟨1, ![E]⟩).start (ix1 e) idx 0
      = (idx (ix2 e 0)).toInt := by
  unfold ScatterDims.start
  rw [dif_pos (List.mem_singleton.mpr rfl)]
  congr 2
  funext b
  refine Fin.ext ?_
  match b with
  | ⟨0, _⟩ => rfl
  | ⟨1, _⟩ => rfl

/-- The vector operand's one axis is an inserted window axis: the window coordinate on it is `0`. -/
theorem window_vec_zero (wf : ScatterDims.WF (⟨1, ![N]⟩ : Shape) ⟨2, ![E, 1]⟩ ⟨1, ![E]⟩ [] [0] [0] 1) (e : Fin E) :
    (⟨[], [0], [0], 1, wf⟩ : ScatterDims ⟨1, ![N]⟩ ⟨2, ![E, 1]⟩ ⟨1, ![E]⟩).window (ix1 e) 0 = 0 := by
  unfold ScatterDims.window
  exact dif_neg (show (0 : Fin 1) ∉ (List.finRange 1).filter (· ∉ ([0] : List (Fin 1))) by decide)

/-- WHICH UPDATE LANDS WHERE, for a vector operand: update `e` lands at operand element `n` exactly when the signed
    index read at `(e, 0)` is `n`. -/
theorem resultIdx_vec_iff (wf : ScatterDims.WF (⟨1, ![N]⟩ : Shape) ⟨2, ![E, 1]⟩ ⟨1, ![E]⟩ [] [0] [0] 1)
    (idx : IVec ⟨2, ![E, 1]⟩ w) (e : Fin E) (n : Fin N) :
    (⟨[], [0], [0], 1, wf⟩ : ScatterDims ⟨1, ![N]⟩ ⟨2, ![E, 1]⟩ ⟨1, ![E]⟩).resultIdx? (ix1 e) idx = some (ix1 n)
      ↔ (idx (ix2 e 0)).toInt = (n : ℤ) := by
  rw [resultIdx_eq_some_iff]
  constructor
  · intro h
    have h0 := h 0
    rw [start_vec_zero, window_vec_zero] at h0
    have h0' : (idx (ix2 e 0)).toInt + ((0 : ℕ) : ℤ) = (n.val : ℤ) := h0
    omega
  · intro h0 a
    match a with
    | ⟨0, _⟩ =>
      show (⟨[], [0], [0], 1, wf⟩ : ScatterDims ⟨1, ![N]⟩ ⟨2, ![E, 1]⟩ ⟨1, ![E]⟩).start (ix1 e) idx 0
        + (((⟨[], [0], [0], 1, wf⟩ : ScatterDims ⟨1, ![N]⟩ ⟨2, ![E, 1]⟩ ⟨1, ![E]⟩).window (ix1 e) 0 : ℕ) : ℤ)
        = (n.val : ℤ)
      rw [start_vec_zero, window_vec_zero]
      omega

/-- THE VECTOR SCATTER READ AT `n`: the operand's element plus the sum, over the updates `e` whose signed index is
    `n`, of the update's element `e`. Updates whose index is negative or at least `N` meet no `n` and contribute
    nowhere. -/
theorem scatterAdd_vec_apply {φ : FTy}
    (wf : ScatterDims.WF (⟨1, ![N]⟩ : Shape) ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal)
        (⟨[], [0], [0], 1, wf⟩ : ScatterDims ⟨1, ![N]⟩ ⟨2, ![E, 1]⟩ ⟨1, ![E]⟩) x idx upd (ix1 n)
      = x (ix1 n)
        + ∑ e ∈ Finset.univ.filter (fun e : Fin E => (idx (ix2 e 0)).toInt = (n : ℤ)), upd (ix1 e) := by
  show x (ix1 n) + ∑ j ∈ Finset.univ.filter (fun j =>
      (⟨[], [0], [0], 1, wf⟩ : ScatterDims ⟨1, ![N]⟩ ⟨2, ![E, 1]⟩ ⟨1, ![E]⟩).resultIdx? j idx
        = some (ix1 n)), upd j = _
  congr 1
  rw [Finset.sum_filter, sum_idx1, Finset.sum_filter]
  exact Finset.sum_congr rfl fun e _ => if_congr (resultIdx_vec_iff wf idx e n) rfl rfl

end Vec

end ScatterRows

end
-- ==== Proof.Spec.lean ====
/-
  The two laws of real arithmetic that join the kernel's arrangement to the reference's.

  Aggregation. The reference sums, over the edges landing on a node, the gathered source row plus the edge's embedding
  (the edge features times the edge weights, plus the edge bias). The kernel sums the gathered rows, the edge features
  and the constant one separately and applies the weights and the bias afterwards. On real data the two agree: a finite
  sum distributes over the product with a weight, and a bias summed over the edges is their number times the bias. (On
  the extended reals this needs the data real: a product does not distribute over a sum of opposite infinities.)

  Normalisation. The reference centres every row by the column mean, takes the mean of the squared deviations, and
  scales by the reciprocal root; the kernel takes the mean of the squares minus the squared mean, clamps it at zero, and
  folds mean and scale into one multiply-add. On real data the mean of squared deviations IS the mean of squares minus
  the squared mean, it is nonnegative so the clamp is the identity, the epsilon makes the root's argument positive so
  its reciprocal is a real, and the two multiply-add forms agree by distributivity.
-/
import Mathlib.Data.EReal.Basic
import Mathlib.Analysis.SpecialFunctions.Pow.Real
import Idealize.ShloMosaic.PureOps.Ideal
import proofs.«173729_j1039382086070_2_alg».proof.Proof.LibSoftmaxRow

noncomputable section

namespace Cert.GinSpec

open Idealize.ShloMosaic Cert.SoftmaxRow

/-- Summing, over a set of edges, a gathered entry plus the edge's embedding entry equals the sum of the gathered
    entries, plus the number of edges times the bias, plus the summed edge features applied to the weights. -/
theorem seg_linear {ι : Type} (s : Finset ι) {K : ℕ} (g : ι → EReal) (ef : ι → Fin K → EReal) (We : Fin K → EReal)
    (be : EReal) (hg : ∀ e, IsReal (g e)) (hef : ∀ e k, IsReal (ef e k)) (hW : ∀ k, IsReal (We k)) (hb : IsReal be) :
    ∑ e ∈ s, (g e + ((∑ k, ef e k * We k) + be))
      = ((∑ e ∈ s, g e) + (∑ e ∈ s, (1 : EReal)) * be) + ∑ k, (∑ e ∈ s, ef e k) * We k := by
  choose g' hg' using hg
  choose ef' hef' using hef
  choose W' hW' using hW
  obtain ⟨b', rfl⟩ := hb
  simp only [hg', hef', hW']
  rw [show (1 : EReal) = ((1 : ℝ) : EReal) from rfl]
  simp only [← EReal.coe_mul, ← coe_sum, ← EReal.coe_add]
  rw [EReal.coe_eq_coe_iff]
  have e1 : ∑ e ∈ s, ∑ k, ef' e k * W' k = ∑ k, (∑ e ∈ s, ef' e k) * W' k := by
    rw [Finset.sum_comm]; exact Finset.sum_congr rfl fun k _ => (Finset.sum_mul _ _ _).symm
  simp only [Finset.sum_add_distrib, e1, Finset.sum_const, nsmul_eq_mul, mul_one]
  ring

/-- Batch normalisation of one entry `x` of a column of `N` reals `h'`: centring, scaling by the reciprocal root of the
    mean squared deviation plus epsilon, then the affine map, equals the folded multiply-add built from the mean of
    squares minus the squared mean clamped at zero. -/
theorem bn_law {N : ℕ} (hN : 0 < N) (h' : Fin N → ℝ) (g b e x : ℝ) (he : 0 < e) :
    ((((x : EReal) - Ideal.div (∑ n, (h' n : EReal)) ((N : ℝ) : EReal))
        * Ideal.rsqrt (Ideal.div (∑ n, ((h' n : EReal) - Ideal.div (∑ n, (h' n : EReal)) ((N : ℝ) : EReal))
            * ((h' n : EReal) - Ideal.div (∑ n, (h' n : EReal)) ((N : ℝ) : EReal))) ((N : ℝ) : EReal) + (e : EReal)))
      * (g : EReal)) + (b : EReal)
      = (x : EReal) * ((g : EReal) * Ideal.rsqrt (max (Ideal.div (∑ n, (h' n : EReal) * (h' n : EReal)) ((N : ℝ) : EReal)
            - Ideal.div (∑ n, (h' n : EReal)) ((N : ℝ) : EReal) * Ideal.div (∑ n, (h' n : EReal)) ((N : ℝ) : EReal)) 0 + (e : EReal)))
        + ((b : EReal) - Ideal.div (∑ n, (h' n : EReal)) ((N : ℝ) : EReal)
            * ((g : EReal) * Ideal.rsqrt (max (Ideal.div (∑ n, (h' n : EReal) * (h' n : EReal)) ((N : ℝ) : EReal)
            - Ideal.div (∑ n, (h' n : EReal)) ((N : ℝ) : EReal) * Ideal.div (∑ n, (h' n : EReal)) ((N : ℝ) : EReal)) 0 + (e : EReal)))) := by
  have hNr : (N : ℝ) ≠ 0 := Nat.cast_ne_zero.mpr hN.ne'
  have hdiv : ∀ r : ℝ, Ideal.div (r : EReal) ((N : ℝ) : EReal) = ((r / N : ℝ) : EReal) := fun r => by
    rw [Ideal.div_coe hNr, ← EReal.coe_mul]; congr 1; ring
  have hμ : Ideal.div (∑ n, (h' n : EReal)) ((N : ℝ) : EReal) = (((∑ n, h' n) / N : ℝ) : EReal) := by
    rw [← coe_sum, hdiv]
  rw [hμ]
  generalize hm : (∑ n, h' n) / (N : ℝ) = m
  have hvarR : Ideal.div (∑ n, ((h' n : EReal) - (m : EReal)) * ((h' n : EReal) - (m : EReal))) ((N : ℝ) : EReal)
      = (((∑ n, (h' n - m) * (h' n - m)) / N : ℝ) : EReal) := by
    simp only [← EReal.coe_sub, ← EReal.coe_mul]
    rw [← coe_sum, hdiv]
  have hex2 : Ideal.div (∑ n, (h' n : EReal) * (h' n : EReal)) ((N : ℝ) : EReal) = (((∑ n, h' n * h' n) / N : ℝ) : EReal) := by
    simp only [← EReal.coe_mul]
    rw [← coe_sum, hdiv]
  have hs : ∑ n, h' n = m * N := by rw [← hm]; field_simp
  have hid : (∑ n, (h' n - m) * (h' n - m)) / N = (∑ n, h' n * h' n) / N - m * m := by
    have h2 : ∑ n, (h' n - m) * (h' n - m) = (∑ n, h' n * h' n) - 2 * m * (∑ n, h' n) + N * (m * m) := by
      have : ∀ n, (h' n - m) * (h' n - m) = h' n * h' n - 2 * m * h' n + m * m := fun n => by ring
      simp only [this, Finset.sum_add_distrib, Finset.sum_sub_distrib, ← Finset.mul_sum, Finset.sum_const,
        Finset.card_univ, Fintype.card_fin, nsmul_eq_mul]
      ring
    rw [h2, hs]; field_simp; ring
  have hnn : 0 ≤ (∑ n, (h' n - m) * (h' n - m)) / N :=
    div_nonneg (Finset.sum_nonneg fun n _ => mul_self_nonneg _) (Nat.cast_nonneg N)
  generalize hv : (∑ n, (h' n - m) * (h' n - m)) / (N : ℝ) = v at hvarR hid hnn
  have hvarK : max ((((∑ n, h' n * h' n) / N : ℝ) : EReal) - (m : EReal) * (m : EReal)) 0 = (v : EReal) := by
    rw [← EReal.coe_mul, ← EReal.coe_sub, ← hid, ← EReal.coe_zero, ← EReal.coe_strictMono.monotone.map_max, max_eq_left hnn]
  rw [hvarR, hex2, hvarK]
  have hpos : 0 < v + e := by linarith
  have hr : Ideal.rsqrt ((v : EReal) + (e : EReal)) = (((Real.sqrt (v + e))⁻¹ : ℝ) : EReal) := by
    rw [← EReal.coe_add, Ideal.rsqrt_coe, if_neg (not_lt.mpr hpos.le), if_neg hpos.ne']
  rw [hr]
  simp only [← EReal.coe_sub, ← EReal.coe_mul, ← EReal.coe_add]
  congr 1; ring

end Cert.GinSpec

end
-- ==== Proof.AggBridge.lean ====
/-
  THE TWO ARRANGEMENTS OF THE EDGE AGGREGATION AGREE (nothing here mentions a program).

  One arrangement sums, over the edges landing on node `n`, the gathered source entry plus the edge's embedding entry
  (the edge's features times the edge weights, plus the edge bias). The other sums the gathered entries, the edge
  features and the constant one separately, each by its own scatter, and applies the weights and the bias afterwards.
  Read at an entry, every one of these scatters into the zero array is a sum over the same set of edges, those whose
  signed destination index is `n`; so the claim is the law  Σ (g + (Σₖ fₖ wₖ + b)) = (Σ g + (Σ 1) b) + Σₖ (Σ fₖ) wₖ.
  Splitting off the gathered part holds in any commutative monoid, so the gathered entries may be ANY extended reals;
  taking the weights and the bias out of the sums is distributivity, which on the extended reals needs the edge
  features, the weights and the bias REAL (a product does not distribute over a sum of opposite infinities).

  Also here: a scatter of real updates into the zero array is real; the perceptron of a real row with real weights is
  real (the clamp of a real at zero is a real); hence the separated arrangement of real data is real.
-/
import proofs.«173729_j1039382086070_2_alg».proof.Proof.LibScatterRows
import proofs.«173729_j1039382086070_2_alg».proof.Proof.LibSoftmaxRow
import proofs.«173729_j1039382086070_2_alg».proof.Proof.Spec
import proofs.«173729_j1039382086070_2_alg».proof.Proof.Form
import Idealize.ShloMosaic.PureOps.Ideal
import Idealize.ShloMosaic.Lib.ValueIdx
import Mathlib

noncomputable section

open scoped BigOperators

namespace Cert.AggBridge

open Idealize.ShloMosaic Idealize.ShloMosaic.ValueIdx Cert.SoftmaxRow Cert.GinForm ScatterRows

/-! ## Reals among the extended reals: zero, one, the clamp at zero -/

/-- Zero is a real. -/
theorem isReal_zero : IsReal (0 : EReal) := ⟨0, EReal.coe_zero.symm⟩

/-- One is a real. -/
theorem isReal_one : IsReal (1 : EReal) := ⟨1, EReal.coe_one.symm⟩

/-- The maximum of a real with zero is a real. -/
theorem IsReal.max_zero {x : EReal} (hx : IsReal x) : IsReal (max x 0) := by
  obtain ⟨r, rfl⟩ := hx
  refine ⟨max r 0, ?_⟩
  rw [EReal.coe_strictMono.monotone.map_max]
  rfl

/-! ## The law of sums -/

/-- Summing, over a set of edges, a gathered entry plus the edge's embedding entry equals the sum of the gathered
    entries, plus the number of edges times the bias, plus the summed edge features applied to the weights. The
    gathered entries may be ANY extended reals: splitting a sum of sums needs only a commutative monoid; the edge
    features, the weights and the bias are real, which is what lets the weights and the bias be taken out of the sums. -/
theorem seg_linear_any {ι : Type} (s : Finset ι) {K : ℕ} (g : ι → EReal) (ef : ι → Fin K → EReal) (We : Fin K → EReal)
    (be : EReal) (hef : ∀ e k, IsReal (ef e k)) (hW : ∀ k, IsReal (We k)) (hb : IsReal be) :
    ∑ e ∈ s, (g e + ((∑ k, ef e k * We k) + be))
      = ((∑ e ∈ s, g e) + (∑ e ∈ s, (1 : EReal)) * be) + ∑ k, (∑ e ∈ s, ef e k) * We k := by
  have h0 := Cert.GinSpec.seg_linear s (fun _ => (0 : EReal)) ef We be (fun _ => isReal_zero) hef hW hb
  simp only [zero_add, Finset.sum_const_zero] at h0
  rw [Finset.sum_add_distrib, h0, add_assoc]

/-! ## Scatters of reals into the zero array are real -/

section Real
variable {N D E w : ℕ} {φ : FTy}

/-- A row scatter of real updates into the zero array is real at every entry: a finite sum of reals. -/
theorem scatter_rows_isReal
    (wf : ScatterDims.WF (⟨2, ![N, D]⟩ : Shape) ⟨2, ![E, 1]⟩ ⟨2, ![E, D]⟩ [1] [0] [0] 1)
    (dcol : IVec ⟨2, ![E, 1]⟩ w) (upd : FVec Ideal ⟨2, ![E, D]⟩ φ) (hupd : ∀ j, IsReal (upd j))
    (n : Fin N) (c : Fin D) :
    IsReal (Host.scatterAdd (F := Ideal)
      (⟨[1], [0], [0], 1, wf⟩ : ScatterDims ⟨2, ![N, D]⟩ ⟨2, ![E, 1]⟩ ⟨2, ![E, D]⟩) (fun _ => 0) dcol upd (ix2 n c)) := by
  rw [scatterAdd_rows_apply]
  exact IsReal.add isReal_zero (isReal_sum _ _ fun e => hupd _)

/-- A vector scatter of real updates into the zero vector is real at every entry: a finite sum of reals. -/
theorem scatter_vec_isReal
    (wf : ScatterDims.WF (⟨1, ![N]⟩ : Shape) ⟨2, ![E, 1]⟩ ⟨1, ![E]⟩ [] [0] [0] 1)
    (dcol : IVec ⟨2, ![E, 1]⟩ w) (upd : FVec Ideal ⟨1, ![E]⟩ φ) (hupd : ∀ j, IsReal (upd j)) (n : Fin N) :
    IsReal (Host.scatterAdd (F := Ideal)
      (⟨[], [0], [0], 1, wf⟩ : ScatterDims ⟨1, ![N]⟩ ⟨2, ![E, 1]⟩ ⟨1, ![E]⟩) (fun _ => 0) dcol upd (ix1 n)) := by
  rw [scatterAdd_vec_apply]
  exact IsReal.add isReal_zero (isReal_sum _ _ fun e => hupd _)

end Real

/-! ## The perceptron of a real row is real -/

/-- With real weights, real biases and a real row, every entry of the perceptron's output is real: sums and products
    of reals, and the maximum of a real with zero. -/
theorem mlpRow_isReal (W1 : (⟨2, ![128, 256]⟩ : Shape).Idx → EReal) (b1 : (⟨1, ![256]⟩ : Shape).Idx → EReal)
    (W2 : (⟨2, ![256, 128]⟩ : Shape).Idx → EReal) (b2 : (⟨1, ![128]⟩ : Shape).Idx → EReal) (a : Fin 128 → EReal)
    (hW1 : ∀ i, IsReal (W1 i)) (hb1 : ∀ i, IsReal (b1 i)) (hW2 : ∀ i, IsReal (W2 i)) (hb2 : ∀ i, IsReal (b2 i))
    (ha : ∀ i, IsReal (a i)) (d : Fin 128) : IsReal (mlpRow W1 b1 W2 b2 a d) := by
  unfold mlpRow
  exact IsReal.add
    (isReal_sum _ _ fun j =>
      IsReal.mul (IsReal.max_zero (IsReal.add (isReal_sum _ _ fun i => IsReal.mul (ha i) (hW1 _)) (hb1 _))) (hW2 _))
    (hb2 _)

/-! ## The two arrangements of the aggregation -/

/-- THE BRIDGE, at any extents: `N` nodes, `E` edges, `K` edge features, `D` columns. -/
theorem agg_bridge_gen {N E K D w : ℕ} {φ : FTy}
    (wfD : ScatterDims.WF (⟨2, ![N, D]⟩ : Shape) ⟨2, ![E, 1]⟩ ⟨2, ![E, D]⟩ [1] [0] [0] 1)
    (wfK : ScatterDims.WF (⟨2, ![N, K]⟩ : Shape) ⟨2, ![E, 1]⟩ ⟨2, ![E, K]⟩ [1] [0] [0] 1)
    (wfV : ScatterDims.WF (⟨1, ![N]⟩ : Shape) ⟨2, ![E, 1]⟩ ⟨1, ![E]⟩ [] [0] [0] 1)
    (dcol : IVec ⟨2, ![E, 1]⟩ w) (G : FVec Ideal ⟨2, ![E, D]⟩ φ)
    (ef : FVec Ideal ⟨2, ![E, K]⟩ φ) (We : FVec Ideal ⟨2, ![K, D]⟩ φ) (be : FVec Ideal ⟨1, ![D]⟩ φ)
    (hef : ∀ i, IsReal (ef i)) (hWe : ∀ i, IsReal (We i)) (hbe : ∀ i, IsReal (be i)) (n : Fin N) (q : Fin D) :
    Host.scatterAdd (F := Ideal)
        (⟨[1], [0], [0], 1, wfD⟩ : ScatterDims ⟨2, ![N, D]⟩ ⟨2, ![E, 1]⟩ ⟨2, ![E, D]⟩)
        (fun _ => 0) dcol
        (fun j => G j + ((∑ k : Fin K, ef (ix2 (j 0) k) * We (ix2 k (j 1))) + be (ix1 (j 1)))) (ix2 n q)
      = (Host.scatterAdd (F := Ideal)
            (⟨[1], [0], [0], 1, wfD⟩ : ScatterDims ⟨2, ![N, D]⟩ ⟨2, ![E, 1]⟩ ⟨2, ![E, D]⟩)
            (fun _ => 0) dcol G (ix2 n q)
          + Host.scatterAdd (F := Ideal)
              (⟨[], [0], [0], 1, wfV⟩ : ScatterDims ⟨1, ![N]⟩ ⟨2, ![E, 1]⟩ ⟨1, ![E]⟩)
              (fun _ => 0) dcol (fun _ => 1) (ix1 n) * be (ix1 q))
        + ∑ k : Fin K, Host.scatterAdd (F := Ideal)
            (⟨[1], [0], [0], 1, wfK⟩ : ScatterDims ⟨2, ![N, K]⟩ ⟨2, ![E, 1]⟩ ⟨2, ![E, K]⟩)
            (fun _ => 0) dcol ef (ix2 n k) * We (ix2 k q) := by
  have hL := scatterAdd_rows_apply wfD (fun _ => (0 : Ideal φ)) dcol
    (fun j => G j + ((∑ k : Fin K, ef (ix2 (j 0) k) * We (ix2 k (j 1))) + be (ix1 (j 1)))) n q
  have hD := scatterAdd_rows_apply wfD (fun _ => (0 : Ideal φ)) dcol G n q
  have hV := scatterAdd_vec_apply wfV (fun _ => (0 : Ideal φ)) dcol (fun _ => (1 : Ideal φ)) n
  have hK : ∀ k : Fin K, _ := fun k => scatterAdd_rows_apply wfK (fun _ => (0 : Ideal φ)) dcol ef n k
  have key := seg_linear_any (Finset.univ.filter (fun e : Fin E => (dcol (ix2 e 0)).toInt = (n : ℤ)))
    (fun e => G (ix2 e q)) (fun e k => ef (ix2 e k)) (fun k => We (ix2 k q)) (be (ix1 q))
    (fun e k => hef _) (fun k => hWe _) (hbe _)
  rw [hL, hD, hV, zero_add, zero_add, zero_add]
  refine key.trans ?_
  congr 1
  refine Finset.sum_congr rfl fun k _ => ?_
  rw [hK k, zero_add]

/-- THE BRIDGE. Scattering, by destination, each edge's gathered entry plus its embedding entry (the edge's features
    times the weights, plus the bias) gives, at node `n` and column `q`, the scattered gathered entries, plus the
    node's count of edges times the bias, plus the scattered edge features applied to the weights — the edge features,
    the weights and the bias being real; the gathered entries may be any extended reals. -/
theorem agg_bridge
    (wf128 : ScatterDims.WF (⟨2, ![50000, 128]⟩ : Shape) ⟨2, ![800000, 1]⟩ ⟨2, ![800000, 128]⟩ [1] [0] [0] 1)
    (wf16 : ScatterDims.WF (⟨2, ![50000, 16]⟩ : Shape) ⟨2, ![800000, 1]⟩ ⟨2, ![800000, 16]⟩ [1] [0] [0] 1)
    (wfV : ScatterDims.WF (⟨1, ![50000]⟩ : Shape) ⟨2, ![800000, 1]⟩ ⟨1, ![800000]⟩ [] [0] [0] 1)
    (dcol : IVec ⟨2, ![800000, 1]⟩ 32) (G : FVec Ideal ⟨2, ![800000, 128]⟩ .f32)
    (ef : FVec Ideal ⟨2, ![800000, 16]⟩ .f32) (We : FVec Ideal ⟨2, ![16, 128]⟩ .f32)
    (be : FVec Ideal ⟨1, ![128]⟩ .f32)
    (hef : ∀ i, IsReal (ef i)) (hWe : ∀ i, IsReal (We i)) (hbe : ∀ i, IsReal (be i)) (n : Fin 50000) (q : Fin 128) :
    Host.scatterAdd (F := Ideal)
        (⟨[1], [0], [0], 1, wf128⟩ : ScatterDims ⟨2, ![50000, 128]⟩ ⟨2, ![800000, 1]⟩ ⟨2, ![800000, 128]⟩)
        (fun _ => 0) dcol
        (fun j => G j + ((∑ k : Fin 16, ef (ix2 (j 0) k) * We (ix2 k (j 1))) + be (ix1 (j 1)))) (ix2 n q)
      = (Host.scatterAdd (F := Ideal)
            (⟨[1], [0], [0], 1, wf128⟩ : ScatterDims ⟨2, ![50000, 128]⟩ ⟨2, ![800000, 1]⟩ ⟨2, ![800000, 128]⟩)
            (fun _ => 0) dcol G (ix2 n q)
          + Host.scatterAdd (F := Ideal)
              (⟨[], [0], [0], 1, wfV⟩ : ScatterDims ⟨1, ![50000]⟩ ⟨2, ![800000, 1]⟩ ⟨1, ![800000]⟩)
              (fun _ => 0) dcol (fun _ => 1) (ix1 n) * be (ix1 q))
        + ∑ k : Fin 16, Host.scatterAdd (F := Ideal)
            (⟨[1], [0], [0], 1, wf16⟩ : ScatterDims ⟨2, ![50000, 16]⟩ ⟨2, ![800000, 1]⟩ ⟨2, ![800000, 16]⟩)
            (fun _ => 0) dcol ef (ix2 n k) * We (ix2 k q) := by
  exact agg_bridge_gen wf128 wf16 wfV dcol G ef We be hef hWe hbe n q

/-- With the gathered entries real too, the separated arrangement is real at every node and column. -/
theorem kernelAgg_isReal
    (wf128 : ScatterDims.WF (⟨2, ![50000, 128]⟩ : Shape) ⟨2, ![800000, 1]⟩ ⟨2, ![800000, 128]⟩ [1] [0] [0] 1)
    (wf16 : ScatterDims.WF (⟨2, ![50000, 16]⟩ : Shape) ⟨2, ![800000, 1]⟩ ⟨2, ![800000, 16]⟩ [1] [0] [0] 1)
    (wfV : ScatterDims.WF (⟨1, ![50000]⟩ : Shape) ⟨2, ![800000, 1]⟩ ⟨1, ![800000]⟩ [] [0] [0] 1)
    (dcol : IVec ⟨2, ![800000, 1]⟩ 32) (G : FVec Ideal ⟨2, ![800000, 128]⟩ .f32)
    (ef : FVec Ideal ⟨2, ![800000, 16]⟩ .f32) (We : FVec Ideal ⟨2, ![16, 128]⟩ .f32)
    (be : FVec Ideal ⟨1, ![128]⟩ .f32)
    (hef : ∀ i, IsReal (ef i)) (hWe : ∀ i, IsReal (We i)) (hbe : ∀ i, IsReal (be i)) (hG : ∀ j, IsReal (G j))
    (n : Fin 50000) (q : Fin 128) :
    IsReal ((Host.scatterAdd (F := Ideal)
            (⟨[1], [0], [0], 1, wf128⟩ : ScatterDims ⟨2, ![50000, 128]⟩ ⟨2, ![800000, 1]⟩ ⟨2, ![800000, 128]⟩)
            (fun _ => 0) dcol G (ix2 n q)
          + Host.scatterAdd (F := Ideal)
              (⟨[], [0], [0], 1, wfV⟩ : ScatterDims ⟨1, ![50000]⟩ ⟨2, ![800000, 1]⟩ ⟨1, ![800000]⟩)
              (fun _ => 0) dcol (fun _ => 1) (ix1 n) * be (ix1 q))
        + ∑ k : Fin 16, Host.scatterAdd (F := Ideal)
            (⟨[1], [0], [0], 1, wf16⟩ : ScatterDims ⟨2, ![50000, 16]⟩ ⟨2, ![800000, 1]⟩ ⟨2, ![800000, 16]⟩)
            (fun _ => 0) dcol ef (ix2 n k) * We (ix2 k q)) :=
  IsReal.add
    (IsReal.add (scatter_rows_isReal wf128 dcol G hG n q)
      (IsReal.mul (scatter_vec_isReal wfV dcol (fun _ => 1) (fun _ => isReal_one) n) (hbe _)))
    (isReal_sum _ _ fun k => IsReal.mul (scatter_rows_isReal wf16 dcol ef hef n k) (hWe _))

end Cert.AggBridge

end
-- ==== Proof.AggEq.lean ====
/-
  THE REFERENCE'S AGGREGATE IS THE KERNEL'S, on real edge data; and the kernel's aggregate and perceptron rows are real
  on real data.

  The reference scatters, by destination, each edge's message — the gathered source entry plus the edge's embedding
  entry — into zeros. The kernel's host stage scatters the gathered rows, the edge features and the constant one
  separately into zeros, adds the in-degree times the edge bias to the first, and leaves the product of the second with
  the edge weights to the first launch. The two programs name the same destination column and the same gathered rows
  (the same operations on the same arrays), and their scatters' dimension numbers are the same lists; so, read at
  `(n, q)`, the claim is the law of sums of the bridge module: the reference's aggregate equals the adjusted node
  aggregate plus the edge aggregate's row times the weights' column, as soon as the edge features, the edge weights and
  the edge bias are real. With the node features real as well, every gathered entry is real, so the kernel's aggregate
  is real, and so is every entry of the perceptron of its rows.
-/
import proofs.«173729_j1039382086070_2_alg».proof.Proof.RefForm
import proofs.«173729_j1039382086070_2_alg».proof.Proof.HostDefs
import proofs.«173729_j1039382086070_2_alg».proof.Proof.HostRead
import proofs.«173729_j1039382086070_2_alg».proof.Proof.AggBridge
import proofs.«173729_j1039382086070_2_alg».proof.Proof.Form

noncomputable section

open scoped BigOperators

namespace Cert.AggEq

open Idealize.ShloMosaic Idealize.ShloMosaic.ValueIdx Cert.SoftmaxRow Cert.GinForm Cert.AggBridge
open Cert.KernelIdeal.HostRun Cert.KernelIdeal.HostRead

section
variable (a0 : FVec Ideal Cert.KernelIdeal.S50000x128 .f32) (a1 : FVec Ideal Cert.KernelIdeal.S800000x16 .f32)
  (a2 : FVec Ideal Cert.KernelIdeal.S16x128 .f32) (a3 : FVec Ideal Cert.KernelIdeal.S128 .f32)
  (a4 : FVec Ideal Cert.KernelIdeal.S128x256 .f32) (a5 : FVec Ideal Cert.KernelIdeal.S256 .f32)
  (a6 : FVec Ideal Cert.KernelIdeal.S256x128 .f32) (a7 : FVec Ideal Cert.KernelIdeal.S128 .f32)
  (a10 a11 : IVec Cert.KernelIdeal.S800000 32)

/-! ## The two programs name the same arrays -/

/-- The reference's destination column is the kernel's. -/
theorem refDst_eq : Cert.ReferenceIdeal.Read.val_main_v13 (F := Ideal) a11 = dstCol a11 := rfl

/-- The reference's gathered rows are the kernel's. -/
theorem refGathered_eq : Cert.ReferenceIdeal.Read.val_main_v10 (F := Ideal) a0 a10 = gathered a0 a10 := rfl

/-- The array the reference scatters into is zero everywhere. -/
theorem refZeros_eq : Cert.ReferenceIdeal.Read.val_main_v12 (F := Ideal) = fun _ => (0 : EReal) :=
  funext Cert.RefForm.zeros_apply

/-! ## The kernel's three aggregates as scatters into zeros, their records in literal form -/

/-- The node aggregate: the gathered rows scattered by destination into zeros. -/
theorem aggNodes_eq : aggNodes a0 a10 a11
    = Host.scatterAdd (F := Ideal)
        (⟨[1], [0], [0], 1, Cert.KernelIdeal.scatter_S50000x128_S800000x1_S800000x128_1_0_0_1.wf⟩ :
          ScatterDims ⟨2, ![50000, 128]⟩ ⟨2, ![800000, 1]⟩ ⟨2, ![800000, 128]⟩)
        (fun _ => 0) (dstCol a11) (gathered a0 a10) := by
  unfold aggNodes
  rw [zeros_S50000x128]
  rfl

/-- The edge aggregate: the edge features scattered by destination into zeros. -/
theorem aggEdge_eq : aggEdge a1 a11
    = Host.scatterAdd (F := Ideal)
        (⟨[1], [0], [0], 1, Cert.KernelIdeal.scatter_S50000x16_S800000x1_S800000x16_1_0_0_1.wf⟩ :
          ScatterDims ⟨2, ![50000, 16]⟩ ⟨2, ![800000, 1]⟩ ⟨2, ![800000, 16]⟩)
        (fun _ => 0) (dstCol a11) a1 := by
  unfold aggEdge
  rw [zeros_S50000x16]
  rfl

/-- The in-degree: the constant one scattered by destination into zeros. -/
theorem deg_eq : deg a11
    = Host.scatterAdd (F := Ideal)
        (⟨[], [0], [0], 1, Cert.KernelIdeal.scatter_S50000_S800000x1_S800000_n_0_0_1.wf⟩ :
          ScatterDims ⟨1, ![50000]⟩ ⟨2, ![800000, 1]⟩ ⟨1, ![800000]⟩)
        (fun _ => 0) (dstCol a11) (fun _ => 1) := by
  unfold deg
  rw [zeros_S50000, ones_S800000]
  rfl

/-- The reference's aggregate: the messages scattered by destination into zeros, its record in literal form and its
    arrays named the kernel's way. -/
theorem aggRef_eq : Cert.RefForm.aggRef a0 a1 a2 a3 a10 a11
    = Host.scatterAdd (F := Ideal)
        (⟨[1], [0], [0], 1, Cert.KernelIdeal.scatter_S50000x128_S800000x1_S800000x128_1_0_0_1.wf⟩ :
          ScatterDims ⟨2, ![50000, 128]⟩ ⟨2, ![800000, 1]⟩ ⟨2, ![800000, 128]⟩)
        (fun _ => 0) (dstCol a11)
        (fun j => gathered a0 a10 j
          + ((∑ k : Fin 16, a1 (ix2 (j 0) k) * a2 (ix2 k (j 1))) + a3 (ix1 (j 1)))) := by
  unfold Cert.RefForm.aggRef Cert.RefForm.msg
  rw [refZeros_eq, refDst_eq, refGathered_eq]
  rfl

/-! ## The aggregates agree -/

/-- THE AGGREGATES AGREE: on real edge features, edge weights and edge bias, the reference's aggregate at `(n, q)` is
    the kernel's adjusted node aggregate plus the edge aggregate's row `n` times column `q` of the edge weights. -/
theorem agg_eq (h1 : ∀ i, IsReal (a1 i)) (h2 : ∀ i, IsReal (a2 i)) (h3 : ∀ i, IsReal (a3 i))
    (n : Fin 50000) (q : Fin 128) :
    Cert.RefForm.aggRef a0 a1 a2 a3 a10 a11 (ix2 n q)
      = aggAdj a0 a3 a10 a11 (ix2 n q) + ∑ k : Fin 16, aggEdge a1 a11 (ix2 n k) * a2 (ix2 k q) := by
  rw [aggRef_eq, aggAdj_apply, aggNodes_eq, aggEdge_eq, deg_eq]
  exact agg_bridge _ _ _ (dstCol a11) (gathered a0 a10) a1 a2 a3 h1 h2 h3 n q

/-- On real data the kernel's aggregate is real at every node and column. -/
theorem kernelAgg_real (h0 : ∀ i, IsReal (a0 i)) (h1 : ∀ i, IsReal (a1 i)) (h2 : ∀ i, IsReal (a2 i))
    (h3 : ∀ i, IsReal (a3 i)) (n : Fin 50000) (q : Fin 128) :
    IsReal (aggAdj a0 a3 a10 a11 (ix2 n q) + ∑ k : Fin 16, aggEdge a1 a11 (ix2 n k) * a2 (ix2 k q)) := by
  rw [aggAdj_apply, aggNodes_eq, aggEdge_eq, deg_eq]
  exact kernelAgg_isReal _ _ _ (dstCol a11) (gathered a0 a10) a1 a2 a3 h1 h2 h3 (gathered_isReal a0 a10 h0) n q

/-- On real data every entry of the perceptron applied to the kernel's aggregated row is real. -/
theorem hRow_real (h0 : ∀ i, IsReal (a0 i)) (h1 : ∀ i, IsReal (a1 i)) (h2 : ∀ i, IsReal (a2 i))
    (h3 : ∀ i, IsReal (a3 i)) (h4 : ∀ i, IsReal (a4 i)) (h5 : ∀ i, IsReal (a5 i)) (h6 : ∀ i, IsReal (a6 i))
    (h7 : ∀ i, IsReal (a7 i)) (n : Fin 50000) (d : Fin 128) :
    IsReal (mlpRow a4 a5 a6 a7
      (fun q => aggAdj a0 a3 a10 a11 (ix2 n q) + ∑ k : Fin 16, aggEdge a1 a11 (ix2 n k) * a2 (ix2 k q)) d) :=
  mlpRow_isReal a4 a5 a6 a7 _ h4 h5 h6 h7 (fun q => kernelAgg_real a0 a1 a2 a3 a10 a11 h0 h1 h2 h3 n q) d

end

end Cert.AggEq

end
-- ==== Proof.BnBridge.lean ====
/-
  Batch normalisation of a real column: the reference's form is the kernel's folded multiply-add.

  With every entry of the column real and the scale and offset real, centring by the mean, scaling by the reciprocal
  root of the mean squared deviation plus epsilon and applying the affine map equals multiplying by the kernel's
  multiplier and adding its offset, both built from the column's sum and sum of squares. The node count's pattern is the
  real 50000 and the epsilon's a positive real; the law itself is `bn_law`.
-/
import proofs.«173729_j1039382086070_2_alg».proof.Proof.Form
import proofs.«173729_j1039382086070_2_alg».proof.Proof.Spec
import proofs.«173729_j1039382086070_2_alg».proof.Proof.Consts

noncomputable section

namespace Cert.BnBridge

open Idealize.ShloMosaic Cert.GinForm Cert.GinSpec Cert.GinConsts Cert.SoftmaxRow

/-- The reference's normalised entry is the kernel's multiply-add of the same entry. -/
theorem bnRef_eq (H : Fin 50000 → EReal) (hH : ∀ n, IsReal (H n)) (g b : EReal) (hg : IsReal g) (hb : IsReal b)
    (n : Fin 50000) :
    bnRef H g b n = H n * bnScale (∑ n', H n') (∑ n', H n' * H n') g + bnShift (∑ n', H n') (∑ n', H n' * H n') g b := by
  choose h' hh' using hH
  obtain ⟨g', rfl⟩ := hg
  obtain ⟨b', rfl⟩ := hb
  obtain ⟨e, he, heps⟩ := ofBits_eps_pos
  have hfun : H = fun n => (h' n : EReal) := funext hh'
  subst hfun
  have h5 : Ideal.ofBits .f32 0x47435000#32 = (((50000 : ℕ) : ℝ) : EReal) := by
    rw [ofBits_50000]; norm_num
  unfold bnRef colMean bnShift bnScale
  simp only [cN, cEps]
  rw [h5, heps]
  exact bn_law (N := 50000) (by norm_num) h' g' b' e (h' n) he

end Cert.BnBridge

end
-- ==== Proof.Bridge.lean ====
/-
  The two results agree, entry by entry, on real data.

  The reference's result at `(n, d)` is batch normalisation, in the reference's form, of the column `d` of the
  perceptron applied to the reference's aggregate; the kernel's is `h(n, d)` times its folded multiplier plus its
  offset. The aggregates agree (linearity of the segment sum, the edge data real), so the perceptron outputs agree
  row by row; they are real, and on a real column the two normalisations are one function.
-/
import proofs.«173729_j1039382086070_2_alg».proof.Proof.RefForm
import proofs.«173729_j1039382086070_2_alg».proof.Proof.KernelValue
import proofs.«173729_j1039382086070_2_alg».proof.Proof.AggEq
import proofs.«173729_j1039382086070_2_alg».proof.Proof.BnBridge

noncomputable section

namespace Cert.Bridge

open Cert.KernelIdeal Cert.KernelIdeal.HostRun Cert.KernelIdeal.KernelValue Cert.GinForm Cert.SoftmaxRow
open Idealize.ShloMosaic Idealize.ShloMosaic.ValueIdx

variable (a0 : FVec Ideal S50000x128 .f32) (a1 : FVec Ideal S800000x16 .f32) (a2 : FVec Ideal S16x128 .f32)
    (a3 : FVec Ideal S128 .f32) (a4 : FVec Ideal S128x256 .f32) (a5 : FVec Ideal S256 .f32) (a6 : FVec Ideal S256x128 .f32)
    (a7 a8 a9 : FVec Ideal S128 .f32) (a10 a11 : IVec S800000 32)

/-- Entry `(n, d)` of the reference's result is entry `(n, d)` of the kernel's, every float argument real. -/
theorem out_eq (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (h6 : ∀ i, IsReal (a6 i)) (h7 : ∀ i, IsReal (a7 i))
    (h8 : ∀ i, IsReal (a8 i)) (h9 : ∀ i, IsReal (a9 i)) (n : Fin 50000) (d : Fin 128) :
    Cert.ReferenceIdeal.Read.val_main_v48 (F := Ideal) a0 a1 a2 a3 a4 a5 a6 a7 a8 a9 a10 a11 (ix2 n d)
      = outK a0 a1 a2 a3 a4 a5 a6 a7 a8 a9 a10 a11 (ix2 n d) := by
  refine (Cert.RefForm.out_apply a0 a1 a2 a3 a4 a5 a6 a7 a8 a9 a10 a11 n d).trans ?_
  refine Eq.trans ?_ (outK_apply a0 a1 a2 a3 a4 a5 a6 a7 a8 a9 a10 a11 n d).symm
  have hH : (fun n' => mlpRow a4 a5 a6 a7 (fun i => Cert.RefForm.aggRef a0 a1 a2 a3 a10 a11 (ix2 n' i)) d)
      = fun n' => hK a0 a1 a2 a3 a4 a5 a6 a7 a10 a11 (ix2 n' d) :=
    funext fun n' => congrArg (fun f => mlpRow a4 a5 a6 a7 f d)
      (funext fun q => Cert.AggEq.agg_eq a0 a1 a2 a3 a10 a11 h1 h2 h3 n' q)
  refine (congrArg (fun H => bnRef H (a8 (ix1 d)) (a9 (ix1 d)) n) hH).trans ?_
  exact Cert.BnBridge.bnRef_eq (fun n' => hK a0 a1 a2 a3 a4 a5 a6 a7 a10 a11 (ix2 n' d))
    (fun n' => Cert.AggEq.hRow_real a0 a1 a2 a3 a4 a5 a6 a7 a10 a11 h0 h1 h2 h3 h4 h5 h6 h7 n' d)
    (a8 (ix1 d)) (a9 (ix1 d)) (h8 _) (h9 _) n

end Cert.Bridge

end
-- ==== Proof.FiniteInputs.lean ====
/-
  From the precondition to real entries. The precondition computes, for each of the ten float arguments,
  the conjunction over all entries of |x| < +∞, and conjoins the ten results; it is assumed to be the word 1.
  On the extended reals |x| = max x (-x) is ⊤ at both ⊤ and ⊥, so the strict inequality against ⊤ leaves
  exactly the real numbers.
-/
import proofs.«173729_j1039382086070_2_alg».proof.Pre_finite_inputs
import proofs.«173729_j1039382086070_2_alg».proof.Proof.Gen.Pre_finite_inputs
import Idealize.ShloMosaic.Lib.ReduceAll
import Idealize.ShloMosaic.PureOps.Ideal

namespace Cert.FiniteInputs

open Idealize.ShloMosaic Cert.Pre_finite_inputs

/-- The rank-0 shape has exactly one index. -/
instance subsingleton_scalar_idx : Subsingleton S_.Idx := ⟨fun a b => funext fun d => d.elim0⟩

/-- An extended real whose absolute value max x (-x) lies strictly below +∞ is a real number:
    at ⊤ the maximum is ⊤ itself, and at ⊥ it is -⊥ = ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The f32 pattern 0x7F800000 (sign 0, exponent all ones, fraction 0) denotes +∞. -/
theorem inf_pattern_eq_top : Ideal.ofBits .f32 0x7F800000#32 = (⊤ : EReal) := by
  simp [Ideal.ofBits, Ideal.ieee]

/-- One element: if the comparison |x| < +∞ holds (is the word 1), x is a real number. -/
theorem real_of_abs_olt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_pattern_eq_top] at h'
  refine real_of_abs_lt_top x ?_
  unfold Ideal.cmp at h'
  by_contra hn
  simp [hn] at h'

/-- A whole array: if the conjunction over all entries of |a i| < +∞ is the word 1, every entry of a is a real number. -/
theorem reals_of_all {s : Shape} {axes : List (Fin s.rank)} (a : FVec Ideal s .f32)
    (bc : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] bc (constant (F := Ideal) S_ .f32 0x7F800000#32)))
          init hr hu j = 1#1) :
    ∀ i, ∃ r : ℝ, a i = (r : EReal) := fun i =>
  real_of_abs_olt_inf (a i) (Host.reduce_andi_all _ init hr hu j e i)

/-- The precondition read back: if the conjunction, over the ten float arguments a_k and all their entries,
    of |a_k i| < +∞ is the word 1, every entry of every float argument is a real number. The two integer
    arguments are unconstrained. -/
theorem reals_of_fn (a0 : FVec Ideal S50000x128 .f32) (a1 : FVec Ideal S800000x16 .f32)
    (a2 : FVec Ideal S16x128 .f32) (a3 : FVec Ideal S128 .f32) (a4 : FVec Ideal S128x256 .f32)
    (a5 : FVec Ideal S256 .f32) (a6 : FVec Ideal S256x128 .f32) (a7 a8 a9 : FVec Ideal S128 .f32)
    (a10 a11 : IVec S800000 32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧
    (∀ i, ∃ r : ℝ, a8 i = (r : EReal)) ∧ (∀ i, ∃ r : ℝ, a9 i = (r : EReal)) := by
  have h0 := congrFun h (fun d => d.elim0)
  dsimp only [Cert.Pre_finite_inputs.fn, Cert.Pre_finite_inputs.fn_part1, Cert.Pre_finite_inputs.fn_part2,
    Idealize.ShloMosaic.andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨reals_of_all a0 _ _ _ _ _ e0, reals_of_all a1 _ _ _ _ _ e1, reals_of_all a2 _ _ _ _ _ e2,
    reals_of_all a3 _ _ _ _ _ e3, reals_of_all a4 _ _ _ _ _ e4, reals_of_all a5 _ _ _ _ _ e5,
    reals_of_all a6 _ _ _ _ _ e6, reals_of_all a7 _ _ _ _ _ e7, reals_of_all a8 _ _ _ _ _ e8,
    reals_of_all a9 _ _ _ _ _ e9⟩

end Cert.FiniteInputs
-- ==== Proof.lean ====
/- The proof of `Cert.Claim`: a graph-isomorphism layer (gather, segment sum, two-layer perceptron, batch
   normalisation) as two TensorCore launches among host operations, against its plain reference, on the extended
   reals.

   The frames of the two kernel programs are the generated ones; the reference's is its generated run with the result
   dropped. `preserves` is stated as `True` (the statement's ledger of idealization rewrites is empty). `algebraic`: the idealized kernel's run ends with
   the result array at `outK` of the argument arrays (the generated frame's launch, concluded with the result buffer;
   the host stages read back; each launch's blocks assembled into whole arrays), the reference's at its composed
   term, read entry by entry; on finite inputs every intermediate value is a real, the segment sum is linear, the
   mean of squared deviations is the mean of squares minus the squared mean and is nonnegative, and the two
   normalisations are one function of the column. -/
import proofs.«173729_j1039382086070_2_alg».proof.Defs
import proofs.«173729_j1039382086070_2_alg».proof.Proof.Gen.Kernel
import proofs.«173729_j1039382086070_2_alg».proof.Proof.Gen.Kernel.Skeleton
import proofs.«173729_j1039382086070_2_alg».proof.Proof.Gen.Kernel.Launch
import proofs.«173729_j1039382086070_2_alg».proof.Proof.Gen.Kernel.Points
import proofs.«173729_j1039382086070_2_alg».proof.Proof.Gen.Kernel.Frame
import proofs.«173729_j1039382086070_2_alg».proof.Proof.Gen.KernelIdeal
import proofs.«173729_j1039382086070_2_alg».proof.Proof.Gen.KernelIdeal.Skeleton
import proofs.«173729_j1039382086070_2_alg».proof.Proof.Gen.KernelIdeal.Launch
import proofs.«173729_j1039382086070_2_alg».proof.Proof.Gen.KernelIdeal.Points
import proofs.«173729_j1039382086070_2_alg».proof.Proof.Gen.KernelIdeal.Frame
import proofs.«173729_j1039382086070_2_alg».proof.Proof.Gen.ReferenceIdeal
import proofs.«173729_j1039382086070_2_alg».proof.Proof.Gen.Pre_finite_inputs
import proofs.«173729_j1039382086070_2_alg».proof.Proof.Gen.ReferenceIdeal.Run
import proofs.«173729_j1039382086070_2_alg».proof.Proof.Gen.ReferenceIdeal.Read
import proofs.«173729_j1039382086070_2_alg».proof.Proof.KernelRun
import proofs.«173729_j1039382086070_2_alg».proof.Proof.KernelValue
import proofs.«173729_j1039382086070_2_alg».proof.Proof.Bridge
import proofs.«173729_j1039382086070_2_alg».proof.Proof.FiniteInputs
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The conjunct is `True` as stated: its ledger of rewrites is empty. -/
theorem preserves : Cert.preserves_Kernel_KernelIdeal := trivial

/-- Both idealized programs end with the result array at the kernel's function of the arguments. -/
theorem algebraic : Cert.algebraic_KernelIdeal_ReferenceIdeal := by
  intro m ρ m' ρ' hpre hagree
  refine ⟨fun c => Cert.KernelIdeal.KernelValue.outK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KernelValue.result_eq m ρ c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v48_eq]
    obtain ⟨e0, e1, e2, e3, e4, e5, e6, e7, e8, e9, e10, e11⟩ := hagree c
    rw [e0, e1, e2, e3, e4, e5, e6, e7, e8, e9, e10, e11]
    obtain ⟨r0, r1, r2, r3, r4, r5, r6, r7, r8, r9⟩ := Cert.FiniteInputs.reals_of_fn _ _ _ _ _ _ _ _ _ _ _ _ (hpre c)
    funext i
    obtain ⟨n, d, rfl⟩ : ∃ (n : Fin 50000) (d : Fin 128), i = ix2 n d := ⟨i 0, i 1, eq_ix2 i⟩
    exact Cert.Bridge.out_eq _ _ _ _ _ _ _ _ _ _ _ _ r0 r1 r2 r3 r4 r5 r6 r7 r8 r9 n d

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
